-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x64 .f32) (main_arg9 : FVec F S64 .f32) (main_arg10 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩
abbrev S5000x64 : Shape := ⟨2, ![5000, 64]⟩

abbrev nBuf : Space → Nat
  | .hbm => 83
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S64x64, .f32⟩
  | .hbm, ⟨29, _⟩ => ⟨S64x64, .f32⟩
  | .hbm, ⟨30, _⟩ => ⟨S1x64, .f32⟩
  | .hbm, ⟨31, _⟩ => ⟨S100000x64, .f32⟩
  | .hbm, ⟨32, _⟩ => ⟨S_, .i32⟩
  | .hbm, ⟨33, _⟩ => ⟨S1200000, .i32⟩
  | .hbm, ⟨34, _⟩ => ⟨S1200000, .i1⟩
  | .hbm, ⟨35, _⟩ => ⟨S_, .i32⟩
  | .hbm, ⟨36, _⟩ => ⟨S1200000, .i32⟩
  | .hbm, ⟨37, _⟩ => ⟨S1200000, .i32⟩
  | .hbm, ⟨38, _⟩ => ⟨S1200000, .i32⟩
  | .hbm, ⟨39, _⟩ => ⟨S1200000x1, .i32⟩
  | .hbm, ⟨40, _⟩ => ⟨S1200000x64, .f32⟩
  | .hbm, ⟨41, _⟩ => ⟨S_, .f32⟩
  | .hbm, ⟨42, _⟩ => ⟨S100000x64, .f32⟩
  | .hbm, ⟨43, _⟩ => ⟨S1200000x1, .i32⟩
  | .hbm, ⟨44, _⟩ => ⟨S100000x64, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1200000, .i32⟩
  | .hbm, ⟨51, _⟩ => ⟨S1200000, .i1⟩
  | .hbm, ⟨52, _⟩ => ⟨S_, .i32⟩
  | .hbm, ⟨53, _⟩ => ⟨S1200000, .i32⟩
  | .hbm, ⟨54, _⟩ => ⟨S1200000, .i32⟩
  | .hbm, ⟨55, _⟩ => ⟨S1200000, .i32⟩
  | .hbm, ⟨56, _⟩ => ⟨S1200000x1, .i32⟩
  | .hbm, ⟨57, _⟩ => ⟨S1200000x64, .f32⟩
  | .hbm, ⟨58, _⟩ => ⟨S_, .f32⟩
  | .hbm, ⟨59, _⟩ => ⟨S100000x64, .f32⟩
  | .hbm, ⟨60, _⟩ => ⟨S1200000x1, .i32⟩
  | .hbm, ⟨61, _⟩ => ⟨S100000x64, .f32⟩
  | .hbm, ⟨62, _⟩ => ⟨S64x64, .f32⟩
  | .hbm, ⟨63, _⟩ => ⟨S64x64, .f32⟩
  | .hbm, ⟨64, _⟩ => ⟨S1x64, .f32⟩
  | .hbm, ⟨65, _⟩ => ⟨S100000x64, .f32⟩
  | .hbm, ⟨66, _⟩ => ⟨S_, .i32⟩
  | .hbm, ⟨67, _⟩ => ⟨S1200000, .i32⟩
  | .hbm, ⟨68, _⟩ => ⟨S1200000, .i1⟩
  | .hbm, ⟨69, _⟩ => ⟨S_, .i32⟩
  | .hbm, ⟨70, _⟩ => ⟨S1200000, .i32⟩
  | .hbm, ⟨71, _⟩ => ⟨S1200000, .i32⟩
  | .hbm, ⟨72, _⟩ => ⟨S1200000, .i32⟩
  | .hbm, ⟨73, _⟩ => ⟨S1200000x1, .i32⟩
  | .hbm, ⟨74, _⟩ => ⟨S1200000x64, .f32⟩
  | .hbm, ⟨75, _⟩ => ⟨S_, .f32⟩
  | .hbm, ⟨76, _⟩ => ⟨S100000x64, .f32⟩
  | .hbm, ⟨77, _⟩ => ⟨S1200000x1, .i32⟩
  | .hbm, ⟨78, _⟩ => ⟨S100000x64, .f32⟩
  | .hbm, ⟨79, _⟩ => ⟨S64x64, .f32⟩
  | .hbm, ⟨80, _⟩ => ⟨S64x64, .f32⟩
  | .hbm, ⟨81, _⟩ => ⟨S1x64, .f32⟩
  | .hbm, ⟨82, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v56) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 102
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S1x1200000, .i32⟩
  | .hbm, ⟨12, _⟩ => ⟨S1200000, .i32⟩
  | .hbm, ⟨13, _⟩ => ⟨S1x1200000, .i32⟩
  | .hbm, ⟨14, _⟩ => ⟨S1200000, .i32⟩
  | .hbm, ⟨15, _⟩ => ⟨S_, .i32⟩
  | .hbm, ⟨16, _⟩ => ⟨S1200000, .i32⟩
  | .hbm, ⟨17, _⟩ => ⟨S1200000, .i1⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S1200000, .i32⟩
  | .hbm, ⟨22, _⟩ => ⟨S1200000x1, .i32⟩
  | .hbm, ⟨23, _⟩ => ⟨S1200000x64, .f32⟩
  | .hbm, ⟨24, _⟩ => ⟨S_, .f32⟩
  | .hbm, ⟨25, _⟩ => ⟨S100000x64, .f32⟩
  | .hbm, ⟨26, _⟩ => ⟨S1200000x1, .i32⟩
  | .hbm, ⟨27, _⟩ => ⟨S100000x64, .f32⟩
  | .hbm, ⟨28, _⟩ => ⟨S64x64, .f32⟩
  | .hbm, ⟨29, _⟩ => ⟨S100000x64, .f32⟩
  | .hbm, ⟨30, _⟩ => ⟨S1x64, .f32⟩
  | .hbm, ⟨31, _⟩ => ⟨S100000x64, .f32⟩
  | .hbm, ⟨32, _⟩ => ⟨S100000x64, .f32⟩
  | .hbm, ⟨33, _⟩ => ⟨S64x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1200000, .i32⟩
  | .hbm, ⟨39, _⟩ => ⟨S1200000, .i1⟩
  | .hbm, ⟨40, _⟩ => ⟨S_, .i32⟩
  | .hbm, ⟨41, _⟩ => ⟨S1200000, .i32⟩
  | .hbm, ⟨42, _⟩ => ⟨S1200000, .i32⟩
  | .hbm, ⟨43, _⟩ => ⟨S1200000, .i32⟩
  | .hbm, ⟨44, _⟩ => ⟨S1200000x1, .i32⟩
  | .hbm, ⟨45, _⟩ => ⟨S1200000x64, .f32⟩
  | .hbm, ⟨46, _⟩ => ⟨S_, .f32⟩
  | .hbm, ⟨47, _⟩ => ⟨S100000x64, .f32⟩
  | .hbm, ⟨48, _⟩ => ⟨S1200000x1, .i32⟩
  | .hbm, ⟨49, _⟩ => ⟨S100000x64, .f32⟩
  | .hbm, ⟨50, _⟩ => ⟨S64x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S64x64, .f32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S_, .f32⟩
  | .hbm, ⟨69, _⟩ => ⟨S100000x64, .f32⟩
  | .hbm, ⟨70, _⟩ => ⟨S1200000x1, .i32⟩
  | .hbm, ⟨71, _⟩ => ⟨S100000x64, .f32⟩
  | .hbm, ⟨72, _⟩ => ⟨S64x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S64x64, .f32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1200000, .i32⟩
  | .hbm, ⟨83, _⟩ => ⟨S1200000, .i1⟩
  | .hbm, ⟨84, _⟩ => ⟨S_, .i32⟩
  | .hbm, ⟨85, _⟩ => ⟨S1200000, .i32⟩
  | .hbm, ⟨86, _⟩ => ⟨S1200000, .i32⟩
  | .hbm, ⟨87, _⟩ => ⟨S1200000, .i32⟩
  | .hbm, ⟨88, _⟩ => ⟨S1200000x1, .i32⟩
  | .hbm, ⟨89, _⟩ => ⟨S1200000x64, .f32⟩
  | .hbm, ⟨90, _⟩ => ⟨S_, .f32⟩
  | .hbm, ⟨91, _⟩ => ⟨S100000x64, .f32⟩
  | .hbm, ⟨92, _⟩ => ⟨S1200000x1, .i32⟩
  | .hbm, ⟨93, _⟩ => ⟨S100000x64, .f32⟩
  | .hbm, ⟨94, _⟩ => ⟨S64x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S64x64, .f32⟩
  | .hbm, ⟨100, _⟩ => ⟨S100000x64, .f32⟩
  | .hbm, ⟨101, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_4 : Ref sig .tc := ⟨.hbm, 59, rfl⟩
abbrev main_v42 : Ref sig .tc := ⟨.hbm, 60, rfl⟩
abbrev main_v43 : Ref sig .tc := ⟨.hbm, 61, rfl⟩
abbrev main_c_5 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_7 : Ref sig .tc := ⟨.hbm, 81, rfl⟩
abbrev main_v61 : Ref sig .tc := ⟨.hbm, 82, rfl⟩
abbrev main_v62 : Ref sig .tc := ⟨.hbm, 83, rfl⟩
abbrev main_c_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.SageLayer.lean ====
/-
  One graph-convolution layer's dense stage over the extended reals.

  With `s` the aggregated neighbour rows and `h` the nodes' own rows (both [a, k]), weights `wl`, `wr` of shape [k, n]
  and a bias row `b` of shape [1, n], the stage's entry (p, j) is
      Σ_q s (p, q) · wl (q, j)  +  b (0, j)  +  Σ_q h (p, q) · wr (q, j).
  A matrix unit that adds the two products first and the bias row last computes the same entry: on the extended reals
  addition is commutative and associative (no finiteness is needed), so
      (A + H) + b = (A + b) + H.
-/
import proofs.«170550_j10496900071608_1_alg».proof.Proof.LibAffine

noncomputable section

namespace Cert.SageLayer

open Idealize.ShloMosaic Idealize.ShloMosaic.ValueIdx Cert.LibAffine

variable {a k n : ℕ}

/-- Two matrix-unit products into zero accumulators added together, and the bias row broadcast over the rows added
    last, is the two-product layer: the sum only changes its order. -/
theorem productsThenBias_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32))
          (FloatOps.matmul D prec h wr (constant ⟨2, ![a, n]⟩ .f32 0x00000000#32)))
        (broadcastTo ⟨2, ![a, n]⟩ b hb)
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  exact add_right_comm _ _ _

/-- The layer followed by the hyperbolic tangent, entry by entry. -/
def tanhAffine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => Ideal.tanh (affine2 s h wl b wr i)

end Cert.SageLayer

end
-- ==== Proof.LibPlainDot.lean ====
/-
  General lemmas: the dimension record of a plain matrix product.

  A product of an [a, k] array by a [k, n] array contracts the left operand's axis 1 against the right operand's
  axis 0; the result's axis 0 is the left operand's axis 0 and its axis 1 the right operand's axis 1; nothing is
  batched. For ANY dimension record with those six axis lists:

  * `contr_rank`, `contr_size`: the contraction has one axis, of extent k;
  * `lhs_row`, `lhs_col`: at result index i and contraction position q the left operand is read at
    (i 0, q 0);
  * `rhs_row`, `rhs_col`: the right operand is read at (q 0, i 1).

  These are the six facts under which a host product and a matrix-unit product into a zero accumulator are the sum
  over q of L (p, q) · R (q, j). Nothing here mentions a program: the extents are variables and the record is any
  record with the stated axis lists.
-/
import Idealize.ShloMosaic.Lib.ValueIdx

noncomputable section

namespace Cert.LibPlainDot

open Idealize.ShloMosaic Idealize.ShloMosaic.ValueIdx

variable {a k n : ℕ} (D : DotDims ⟨2, ![a, k]⟩ ⟨2, ![k, n]⟩ ⟨2, ![a, n]⟩)

/-- The contraction has one axis. -/
theorem contr_rank (hlc : D.lhsContracting = [1]) : D.contr.rank = 1 := by
  rw [D.rank_contr, hlc]; rfl

/-- Two coordinates of one index at equal positions are equal. -/
private theorem coord_congr {s : Shape} (i : s.Idx) (p q : ℕ) (hp : p < s.rank) (hq : q < s.rank) (h : p = q) :
    (i ⟨p, hp⟩).val = (i ⟨q, hq⟩).val := by subst h; rfl

/-- The contraction's one axis has the left operand's column extent. -/
theorem contr_size (hlc : D.lhsContracting = [1]) :
    D.contr.size ⟨0, by rw [contr_rank D hlc]; exact Nat.one_pos⟩ = k := by
  have h0 : 0 < D.lhsContracting.length := by rw [hlc]; exact Nat.one_pos
  have e := D.size_contr 0 h0
  have e1 : D.lhsContracting[0] = (1 : Fin 2) := by simp only [hlc, List.getElem_cons_zero]
  rw [e1] at e
  exact e

/-- The left operand's row is the result's row. -/
theorem lhs_row (hlb : D.lhsBatch = []) (hln : D.lhsNonContracting = [0]) (i : (⟨2, ![a, n]⟩ : Shape).Idx) (q : D.contr.Idx) :
    (D.lhsIdx i q 0).val = (i 0).val := by
  unfold DotDims.lhsIdx
  rw [dif_neg (by rw [hlb]; exact List.not_mem_nil), dif_pos (by rw [hln]; exact List.mem_singleton.mpr rfl)]
  simp only [Fin.val_cast]
  exact coord_congr i _ _ _ _ (by simp [hlb, hln])

/-- The left operand's column is the contraction position. -/
theorem lhs_col (hlc : D.lhsContracting = [1]) (i : (⟨2, ![a, n]⟩ : Shape).Idx) (q : D.contr.Idx) :
    (D.lhsIdx i q 1).val = (q ⟨0, by rw [contr_rank D hlc]; exact Nat.one_pos⟩).val :=
  D.lhsIdx_val_of_single hlc i q

/-- The right operand's row is the contraction position. -/
theorem rhs_row (hlc : D.lhsContracting = [1]) (hrc : D.rhsContracting = [0]) (i : (⟨2, ![a, n]⟩ : Shape).Idx) (q : D.contr.Idx) :
    (D.rhsIdx i q 0).val = (q ⟨0, by rw [contr_rank D hlc]; exact Nat.one_pos⟩).val :=
  D.rhsIdx_val_of_single hrc i q

/-- The right operand's column is the result's column. -/
theorem rhs_col (hlb : D.lhsBatch = []) (hln : D.lhsNonContracting = [0]) (hrb : D.rhsBatch = []) (hrn : D.rhsNonContracting = [1])
    (i : (⟨2, ![a, n]⟩ : Shape).Idx) (q : D.contr.Idx) :
    (D.rhsIdx i q 1).val = (i 1).val := by
  unfold DotDims.rhsIdx
  rw [dif_neg (by rw [hrb]; exact List.not_mem_nil), dif_pos (by rw [hrn]; exact List.mem_singleton.mpr rfl)]
  simp only [Fin.val_cast]
  exact coord_congr i _ _ _ _ (by simp [hlb, hln, hrn])

end Cert.LibPlainDot

end
-- ==== Proof.KPayload.lean ====
/-
  What the kernel body stores, as one function of the five blocks it loads.

  Every one of the four launches runs the same body on a block of 5000 nodes: with `x0` the block of aggregated rows,
  `x1` the block of the nodes' own rows, `x2`, `x3` the two (already transposed) weights and `x4` the bias row, it
  stores (x0 · x2 + x1 · x3) + x4, the first three launches followed by the hyperbolic tangent. The roundings to the
  narrow format on the way into the matrix unit are the identity on the extended reals, and a cast to the same shape
  is the identity, so the stored block is the two-product layer of the block's rows.
-/
import proofs.«170550_j10496900071608_1_alg».proof.Proof.Gen.KernelIdeal.Skeleton
import proofs.«170550_j10496900071608_1_alg».proof.Proof.SageLayer
import proofs.«170550_j10496900071608_1_alg».proof.Proof.LibPlainDot
import Idealize.ShloMosaic.Lib.Pipeline.Value

noncomputable section

namespace Cert.KernelIdeal.Hand

open Idealize.ShloMosaic Idealize.ShloMosaic.ValueIdx Cert.KernelIdeal Cert.KernelIdeal.Gen Cert.LibAffine Cert.SageLayer

local notation "DD" => dot_S5000x64_S64x64_S5000x64_1_0_0_1_n_n

/-- The block's dense stage in the order the body adds it up. -/
theorem blockSum_eq (x0 x1 : Vec Ideal S5000x64 .f32) (x2 x3 : Vec Ideal S64x64 .f32) (x4 : Vec Ideal S1x64 .f32) :
    addf (addf (matmul DD none (truncf .bf16 x0 bitsLt_bf16_f32) (truncf .bf16 x2 bitsLt_bf16_f32) (constant S5000x64 .f32 0x00000000#32))
          (matmul DD none (truncf .bf16 x1 bitsLt_bf16_f32) (truncf .bf16 x3 bitsLt_bf16_f32) (constant S5000x64 .f32 0x00000000#32)))
        (broadcastTo S5000x64 x4 broadcasts_S1x64_S5000x64)
      = affine2 (a := 5000) (k := 64) (n := 64) x0 x1 x2 x4 x3 :=
  productsThenBias_eq (a := 5000) (k := 64) (n := 64) DD
    (Cert.LibPlainDot.contr_rank DD rfl) (Cert.LibPlainDot.contr_size DD rfl)
    (Cert.LibPlainDot.lhs_row DD rfl rfl) (Cert.LibPlainDot.lhs_col DD rfl)
    (Cert.LibPlainDot.rhs_row DD rfl rfl) (Cert.LibPlainDot.rhs_col DD rfl rfl rfl rfl)
    broadcasts_S1x64_S5000x64 none _ _ _ _ x4

theorem k0_pay1_eq (x0 x1 : Vec Ideal S5000x64 .f32) (x2 x3 : Vec Ideal S64x64 .f32) (x4 : Vec Ideal S1x64 .f32) :
    k0_pay1 (F := Ideal) x0 x1 x2 x3 x4 = tanhAffine2 (a := 5000) (k := 64) (n := 64) x0 x1 x2 x4 x3 := by
  unfold k0_pay1
  simp only [shapeCast_self]
  funext i
  exact congrArg Ideal.tanh (congrFun (blockSum_eq x0 x1 x2 x3 x4) i)

theorem k1_pay1_eq (x0 x1 : Vec Ideal S5000x64 .f32) (x2 x3 : Vec Ideal S64x64 .f32) (x4 : Vec Ideal S1x64 .f32) :
    k1_pay1 (F := Ideal) x0 x1 x2 x3 x4 = tanhAffine2 (a := 5000) (k := 64) (n := 64) x0 x1 x2 x4 x3 := by
  unfold k1_pay1
  simp only [shapeCast_self]
  funext i
  exact congrArg Ideal.tanh (congrFun (blockSum_eq x0 x1 x2 x3 x4) i)

theorem k2_pay1_eq (x0 x1 : Vec Ideal S5000x64 .f32) (x2 x3 : Vec Ideal S64x64 .f32) (x4 : Vec Ideal S1x64 .f32) :
    k2_pay1 (F := Ideal) x0 x1 x2 x3 x4 = tanhAffine2 (a := 5000) (k := 64) (n := 64) x0 x1 x2 x4 x3 := by
  unfold k2_pay1
  simp only [shapeCast_self]
  funext i
  exact congrArg Ideal.tanh (congrFun (blockSum_eq x0 x1 x2 x3 x4) i)

theorem k3_pay1_eq (x0 x1 : Vec Ideal S5000x64 .f32) (x2 x3 : Vec Ideal S64x64 .f32) (x4 : Vec Ideal S1x64 .f32) :
    k3_pay1 (F := Ideal) x0 x1 x2 x3 x4 = affine2 (a := 5000) (k := 64) (n := 64) x0 x1 x2 x4 x3 := by
  unfold k3_pay1
  simp only [shapeCast_self]
  exact blockSum_eq x0 x1 x2 x3 x4

end Cert.KernelIdeal.Hand

end
-- ==== Proof.KRegion0.lean ====
/-
  Launch 0: what its output array holds when the launch is over, as one function of the five arrays it reads.

  The grid has 20 points; point t works on rows 5000·t … 5000·t + 4999: it is handed that block of rows of the
  aggregated array and of the nodes' own array, and the two weights and the bias row whole, and writes back that block
  of rows of the output. An entry (p, j) of the two-product layer only reads row p of the two matrices, column j of the
  weights and entry j of the bias, so the layer of the block's rows is the block of rows of the layer of the whole
  arrays; the 20 blocks tile the array (row r lies in block r / 5000), so the array ends holding the layer under the
  hyperbolic tangent.
-/
import proofs.«170550_j10496900071608_1_alg».proof.Proof.Gen.KernelIdeal.Frame
import proofs.«170550_j10496900071608_1_alg».proof.Proof.KPayload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibAffine Cert.SageLayer

variable (V : (c : Dev nD) → (b : Ref sig .tc) → Buf (Elt Ideal) ((c : Thread nD τ).loc b))

theorem origin0 : (![0, 0] : Fin 2 → Nat) = fun _ => 0 := funext fun a => by fin_cases a <;> rfl

/-- The printed index maps over the grid: the two row-blocked inputs and the output sit at block t of the rows, the
    weights and the bias row at their one block. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What the launch leaves in its output array: the layer of the arrays it reads as the launch finds them. -/
def layerOut0 (c : Dev nD) : S100000x64.Idx → Elt Ideal .f32 :=
  tanhAffine2 (a := 100000) (k := 64) (n := 64) (V c main_v13) (V c main_arg0) (V c main_v14) (V c main_v16) (V c main_v15)

/-- Row p of point t's block is row 5000·t + p of the array. -/
def rowOf0 (t : Fin cfg0.N) (p : Fin 5000) : Fin 100000 :=
  ⟨t.val * 5000 + p.val, by have ht : t.val < 20 := lt_of_lt_of_eq t.isLt N_0; have hp := p.isLt; omega⟩

/-- What point t writes back is block t of `layerOut0`. -/
theorem flushed0_eq (c : Dev nD) (t : Fin cfg0.N) :
    (dat0 V c).flushed 5 t = ((cfg0.win 5).blk t).view.read (Elt Ideal) (layerOut0 V c) := by
  show (cfg0.win 5).cut (grid0.coords t) ((dat0 V c).after 5 t) = _
  rw [after0_5]
  unfold out0_5
  rw [View.canon_unit_zero origin0]
  simp only [View.ld_unit_zero (S := S5000x64) origin0, View.ld_unit_zero (S := S64x64) origin0, View.ld_unit_zero (S := S1x64) origin0]
  rw [k0_pay1_eq]
  obtain ⟨e00, e01, e10, e11, e20, e21, e30, e31, e40, e41, e50, e51⟩ := blockIndex0 t
  funext j
  obtain ⟨p, q, rfl⟩ : ∃ (p : Fin 5000) (q : Fin 64), j = ix2 p q := ⟨j 0, j 1, eq_ix2 j⟩
  have hout : ((cfg0.win 5).blk t).view.emb (ix2 p q) = ix2 (rowOf0 t p) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show tanhAffine2 (a := 5000) (k := 64) (n := 64) (iblk0 V c 0 t) (iblk0 V c 1 t) (iblk0 V c 2 t) (iblk0 V c 4 t) (iblk0 V c 3 t) (ix2 p q)
    = layerOut0 V c (((cfg0.win 5).blk t).view.emb (ix2 p q))
  rw [hout]
  show Ideal.tanh (affine2At (a := 5000) (k := 64) (n := 64) (iblk0 V c 0 t) (iblk0 V c 1 t) (iblk0 V c 2 t) (iblk0 V c 4 t) (iblk0 V c 3 t) p q)
    = Ideal.tanh (affine2At (a := 100000) (k := 64) (n := 64) (V c main_v13) (V c main_arg0) (V c main_v14) (V c main_v16) (V c main_v15) (rowOf0 t p) q)
  refine congrArg Ideal.tanh (affine2At_congr (a := 100000) (k := 64) (n := 64) (a' := 5000) (V c main_v13) (V c main_arg0) (V c main_v14) (V c main_v16) (V c main_v15)
    (iblk0 V c 0 t) (iblk0 V c 1 t) (iblk0 V c 2 t) (iblk0 V c 4 t) (iblk0 V c 3 t) p (rowOf0 t p) q ?_ ?_ ?_ ?_ ?_)
  · intro r
    show V c main_v13 (((cfg0.win 0).blk t).view.emb (ix2 p r)) = V c main_v13 (ix2 (rowOf0 t p) r)
    refine congrArg (V c main_v13) (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * r.val = r.val; omega
  · intro r
    show V c main_arg0 (((cfg0.win 1).blk t).view.emb (ix2 p r)) = V c main_arg0 (ix2 (rowOf0 t p) r)
    refine congrArg (V c main_arg0) (funext fun a => Fin.ext ?_)
    match a with
    | ⟨0, _⟩ => show win0_1.index t (0 : Fin 2) * 5000 + 1 * p.val = t.val * 5000 + p.val; omega
    | ⟨1, _⟩ => show win0_1.index t (1 : Fin 2) * 64 + 1 * r.val = r.val; omega
  · intro r
    show V c main_v14 (((cfg0.win 2).blk t).view.emb (ix2 r q)) = V c main_v14 (ix2 r q)
    refine congrArg (V c main_v14) (funext fun a => Fin.ext ?_)
    match a with
    | ⟨0, _⟩ => show win0_2.index t (0 : Fin 2) * 64 + 1 * r.val = r.val; omega
    | ⟨1, _⟩ => show win0_2.index t (1 : Fin 2) * 64 + 1 * q.val = q.val; omega
  · show V c main_v16 (((cfg0.win 4).blk t).view.emb (ix2 (0 : Fin 1) q)) = V c main_v16 (ix2 (0 : Fin 1) q)
    refine congrArg (V c main_v16) (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  · intro r
    show V c main_v15 (((cfg0.win 3).blk t).view.emb (ix2 r q)) = V c main_v15 (ix2 r q)
    refine congrArg (V c main_v15) (funext fun a => Fin.ext ?_)
    match a with
    | ⟨0, _⟩ => show win0_3.index t (0 : Fin 2) * 64 + 1 * r.val = r.val; omega
    | ⟨1, _⟩ => show win0_3.index t (1 : Fin 2) * 64 + 1 * q.val = q.val; omega

/-- An index of the output array is in point t's block iff each coordinate is in the block's range on its axis. -/
theorem memBlock0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v17).slice (win0_5.rect t)).set ↔ _
  rw [View.set_slice_whole, Rect.mem_set_unit]
  exact Iff.rfl

/-- Every entry of the output array is in the block of the point its row falls in. -/
theorem covered0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : (i 0).val / 5000 < cfg0.N := lt_of_lt_of_eq (by omega : (i 0).val / 5000 < 20) N_0.symm
  obtain ⟨-, -, -, -, -, -, -, -, -, -, e50, e51⟩ := blockIndex0 ⟨(i 0).val / 5000, hN⟩
  refine ⟨⟨(i 0).val / 5000, hN⟩, flush0_5 _, ?_⟩
  rw [memBlock0]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 64 ≤ (i 1).val ∧ (i 1).val < win0_5.index ⟨(i 0).val / 5000, hN⟩ (1 : Fin 2) * 64 + 64
    rw [e51]; omega

/-- The launch's output array when the launch is over. -/
theorem layerOut0_final (c : Dev nD) : (dat0 V c).arrAt 5 cfg0.N = layerOut0 V c :=
  (dat0 V c).arrAt_eq_of_cover 5 (layerOut0 V c) (fun t _ => flushed0_eq V c t) (covered0)

end Cert.KernelIdeal.Hand

end
-- ==== Proof.KRegion1.lean ====
/-
  Launch 1: what its output array holds when the launch is over, as one function of the five arrays it reads.

  The grid has 20 points; point t works on rows 5000·t … 5000·t + 4999: it is handed that block of rows of the
  aggregated array and of the nodes' own array, and the two weights and the bias row whole, and writes back that block
  of rows of the output. An entry (p, j) of the two-product layer only reads row p of the two matrices, column j of the
  weights and entry j of the bias, so the layer of the block's rows is the block of rows of the layer of the whole
  arrays; the 20 blocks tile the array (row r lies in block r / 5000), so the array ends holding the layer under the
  hyperbolic tangent.
-/
import proofs.«170550_j10496900071608_1_alg».proof.Proof.Gen.KernelIdeal.Frame
import proofs.«170550_j10496900071608_1_alg».proof.Proof.KPayload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibAffine Cert.SageLayer

variable (V : (c : Dev nD) → (b : Ref sig .tc) → Buf (Elt Ideal) ((c : Thread nD τ).loc b))

theorem origin1 : (![0, 0] : Fin 2 → Nat) = fun _ => 0 := funext fun a => by fin_cases a <;> rfl

/-- The printed index maps over the grid: the two row-blocked inputs and the output sit at block t of the rows, the
    weights and the bias row at their one block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What the launch leaves in its output array: the layer of the arrays it reads as the launch finds them. -/
def layerOut1 (c : Dev nD) : S100000x64.Idx → Elt Ideal .f32 :=
  tanhAffine2 (a := 100000) (k := 64) (n := 64) (V c main_v27) (V c main_v17) (V c main_v28) (V c main_v30) (V c main_v29)

/-- Row p of point t's block is row 5000·t + p of the array. -/
def rowOf1 (t : Fin cfg1.N) (p : Fin 5000) : Fin 100000 :=
  ⟨t.val * 5000 + p.val, by have ht : t.val < 20 := lt_of_lt_of_eq t.isLt N_1; have hp := p.isLt; omega⟩

/-- What point t writes back is block t of `layerOut1`. -/
theorem flushed1_eq (c : Dev nD) (t : Fin cfg1.N) :
    (dat1 V c).flushed 5 t = ((cfg1.win 5).blk t).view.read (Elt Ideal) (layerOut1 V c) := by
  show (cfg1.win 5).cut (grid1.coords t) ((dat1 V c).after 5 t) = _
  rw [after1_5]
  unfold out1_5
  rw [View.canon_unit_zero origin1]
  simp only [View.ld_unit_zero (S := S5000x64) origin1, View.ld_unit_zero (S := S64x64) origin1, View.ld_unit_zero (S := S1x64) origin1]
  rw [k1_pay1_eq]
  obtain ⟨e00, e01, e10, e11, e20, e21, e30, e31, e40, e41, e50, e51⟩ := blockIndex1 t
  funext j
  obtain ⟨p, q, rfl⟩ : ∃ (p : Fin 5000) (q : Fin 64), j = ix2 p q := ⟨j 0, j 1, eq_ix2 j⟩
  have hout : ((cfg1.win 5).blk t).view.emb (ix2 p q) = ix2 (rowOf1 t p) q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  show tanhAffine2 (a := 5000) (k := 64) (n := 64) (iblk1 V c 0 t) (iblk1 V c 1 t) (iblk1 V c 2 t) (iblk1 V c 4 t) (iblk1 V c 3 t) (ix2 p q)
    = layerOut1 V c (((cfg1.win 5).blk t).view.emb (ix2 p q))
  rw [hout]
  show Ideal.tanh (affine2At (a := 5000) (k := 64) (n := 64) (iblk1 V c 0 t) (iblk1 V c 1 t) (iblk1 V c 2 t) (iblk1 V c 4 t) (iblk1 V c 3 t) p q)
    = Ideal.tanh (affine2At (a := 100000) (k := 64) (n := 64) (V c main_v27) (V c main_v17) (V c main_v28) (V c main_v30) (V c main_v29) (rowOf1 t p) q)
  refine congrArg Ideal.tanh (affine2At_congr (a := 100000) (k := 64) (n := 64) (a' := 5000) (V c main_v27) (V c main_v17) (V c main_v28) (V c main_v30) (V c main_v29)
    (iblk1 V c 0 t) (iblk1 V c 1 t) (iblk1 V c 2 t) (iblk1 V c 4 t) (iblk1 V c 3 t) p (rowOf1 t p) q ?_ ?_ ?_ ?_ ?_)
  · intro r
    show V c main_v27 (((cfg1.win 0).blk t).view.emb (ix2 p r)) = V c main_v27 (ix2 (rowOf1 t p) r)
    refine congrArg (V c main_v27) (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * r.val = r.val; omega
  · intro r
    show V c main_v17 (((cfg1.win 1).blk t).view.emb (ix2 p r)) = V c main_v17 (ix2 (rowOf1 t p) r)
    refine congrArg (V c main_v17) (funext fun a => Fin.ext ?_)
    match a with
    | ⟨0, _⟩ => show win1_1.index t (0 : Fin 2) * 5000 + 1 * p.val = t.val * 5000 + p.val; omega
    | ⟨1, _⟩ => show win1_1.index t (1 : Fin 2) * 64 + 1 * r.val = r.val; omega
  · intro r
    show V c main_v28 (((cfg1.win 2).blk t).view.emb (ix2 r q)) = V c main_v28 (ix2 r q)
    refine congrArg (V c main_v28) (funext fun a => Fin.ext ?_)
    match a with
    | ⟨0, _⟩ => show win1_2.index t (0 : Fin 2) * 64 + 1 * r.val = r.val; omega
    | ⟨1, _⟩ => show win1_2.index t (1 : Fin 2) * 64 + 1 * q.val = q.val; omega
  · show V c main_v30 (((cfg1.win 4).blk t).view.emb (ix2 (0 : Fin 1) q)) = V c main_v30 (ix2 (0 : Fin 1) q)
    refine congrArg (V c main_v30) (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega
  · intro r
    show V c main_v29 (((cfg1.win 3).blk t).view.emb (ix2 r q)) = V c main_v29 (ix2 r q)
    refine congrArg (V c main_v29) (funext fun a => Fin.ext ?_)
    match a with
    | ⟨0, _⟩ => show win1_3.index t (0 : Fin 2) * 64 + 1 * r.val = r.val; omega
    | ⟨1, _⟩ => show win1_3.index t (1 : Fin 2) * 64 + 1 * q.val = q.val; omega

/-- An index of the output array is in point t's block iff each coordinate is in the block's range on its axis. -/
theorem memBlock1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v31).slice (win1_5.rect t)).set ↔ _
  rw [View.set_slice_whole, Rect.mem_set_unit]
  exact Iff.rfl

/-- Every entry of the output array is in the block of the point its row falls in. -/
theorem covered1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := lt_of_lt_of_eq (by omega : (i 0).val / 5000 < 20) N_1.symm
  obtain ⟨-, -, -, -, -, -, -, -, -, -, e50, e51⟩ := blockIndex1 ⟨(i 0).val / 5000, hN⟩
  refine ⟨⟨(i 0).val / 5000, hN⟩, flush1_5 _, ?_⟩
  rw [memBlock1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e51]; omega

/-- The launch's output array when the launch is over. -/
theorem layerOut1_final (c : Dev nD) : (dat1 V c).arrAt 5 cfg1.N = layerOut1 V c :=
  (dat1 V c).arrAt_eq_of_cover 5 (layerOut1 V c) (fun t _ => flushed1_eq V c t) (covered1)

end Cert.KernelIdeal.Hand

end
-- ==== Proof.KRegion2.lean ====
/-
  Launch 2: what its output array holds when the launch is over, as one function of the five arrays it reads.

  The grid has 20 points; point t works on rows 5000·t … 5000·t + 4999: it is handed that block of rows of the
  aggregated array and of the nodes' own array, and the two weights and the bias row whole, and writes back that block
  of rows of the output. An entry (p, j) of the two-product layer only reads row p of the two matrices, column j of the
  weights and entry j of the bias, so the layer of the block's rows is the block of rows of the layer of the whole
  arrays; the 20 blocks tile the array (row r lies in block r / 5000), so the array ends holding the layer under the
  hyperbolic tangent.
-/
import proofs.«170550_j10496900071608_1_alg».proof.Proof.Gen.KernelIdeal.Frame
import proofs.«170550_j10496900071608_1_alg».proof.Proof.KPayload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibAffine Cert.SageLayer

variable (V : (c : Dev nD) → (b : Ref sig .tc) → Buf (Elt Ideal) ((c : Thread nD τ).loc b))

theorem origin2 : (![0, 0] : Fin 2 → Nat) = fun _ => 0 := funext fun a => by fin_cases a <;> rfl

/-- The printed index maps over the grid: the two row-blocked inputs and the output sit at block t of the rows, the
    weights and the bias row at their one block. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What the launch leaves in its output array: the layer of the arrays it reads as the launch finds them. -/
def layerOut2 (c : Dev nD) : S100000x64.Idx → Elt Ideal .f32 :=
  tanhAffine2 (a := 100000) (k := 64) (n := 64) (V c main_v41) (V c main_v31) (V c main_v42) (V c main_v44) (V c main_v43)

/-- Row p of point t's block is row 5000·t + p of the array. -/
def rowOf2 (t : Fin cfg2.N) (p : Fin 5000) : Fin 100000 :=
  ⟨t.val * 5000 + p.val, by have ht : t.val < 20 := lt_of_lt_of_eq t.isLt N_2; have hp := p.isLt; omega⟩

/-- What point t writes back is block t of `layerOut2`. -/
theorem flushed2_eq (c : Dev nD) (t : Fin cfg2.N) :
    (dat2 V c).flushed 5 t = ((cfg2.win 5).blk t).view.read (Elt Ideal) (layerOut2 V c) := by
  show (cfg2.win 5).cut (grid2.coords t) ((dat2 V c).after 5 t) = _
  rw [after2_5]
  unfold out2_5
  rw [View.canon_unit_zero origin2]
  simp only [View.ld_unit_zero (S := S5000x64) origin2, View.ld_unit_zero (S := S64x64) origin2, View.ld_unit_zero (S := S1x64) origin2]
  rw [k2_pay1_eq]
  obtain ⟨e00, e01, e10, e11, e20, e21, e30, e31, e40, e41, e50, e51⟩ := blockIndex2 t
  funext j
  obtain ⟨p, q, rfl⟩ : ∃ (p : Fin 5000) (q : Fin 64), j = ix2 p q := ⟨j 0, j 1, eq_ix2 j⟩
  have hout : ((cfg2.win 5).blk t).view.emb (ix2 p q) = ix2 (rowOf2 t p) q := by
    funext a; apply Fin.ext
    match a with
    | ⟨0, _⟩ => show win2_5.index t (0 : Fin 2) * 5000 + 1 * p.val = t.val * 5000 + p.val; omega
    | ⟨1, _⟩ => show win2_5.index t (1 : Fin 2) * 64 + 1 * q.val = q.val; omega
  show tanhAffine2 (a := 5000) (k := 64) (n := 64) (iblk2 V c 0 t) (iblk2 V c 1 t) (iblk2 V c 2 t) (iblk2 V c 4 t) (iblk2 V c 3 t) (ix2 p q)
    = layerOut2 V c (((cfg2.win 5).blk t).view.emb (ix2 p q))
  rw [hout]
  show Ideal.tanh (affine2At (a := 5000) (k := 64) (n := 64) (iblk2 V c 0 t) (iblk2 V c 1 t) (iblk2 V c 2 t) (iblk2 V c 4 t) (iblk2 V c 3 t) p q)
    = Ideal.tanh (affine2At (a := 100000) (k := 64) (n := 64) (V c main_v41) (V c main_v31) (V c main_v42) (V c main_v44) (V c main_v43) (rowOf2 t p) q)
  refine congrArg Ideal.tanh (affine2At_congr (a := 100000) (k := 64) (n := 64) (a' := 5000) (V c main_v41) (V c main_v31) (V c main_v42) (V c main_v44) (V c main_v43)
    (iblk2 V c 0 t) (iblk2 V c 1 t) (iblk2 V c 2 t) (iblk2 V c 4 t) (iblk2 V c 3 t) p (rowOf2 t p) q ?_ ?_ ?_ ?_ ?_)
  · intro r
    show V c main_v41 (((cfg2.win 0).blk t).view.emb (ix2 p r)) = V c main_v41 (ix2 (rowOf2 t p) r)
    refine congrArg (V c main_v41) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * r.val = r.val; omega
  · intro r
    show V c main_v31 (((cfg2.win 1).blk t).view.emb (ix2 p r)) = V c main_v31 (ix2 (rowOf2 t p) r)
    refine congrArg (V c main_v31) (funext fun a => Fin.ext ?_)
    match a with
    | ⟨0, _⟩ => show win2_1.index t (0 : Fin 2) * 5000 + 1 * p.val = t.val * 5000 + p.val; omega
    | ⟨1, _⟩ => show win2_1.index t (1 : Fin 2) * 64 + 1 * r.val = r.val; omega
  · intro r
    show V c main_v42 (((cfg2.win 2).blk t).view.emb (ix2 r q)) = V c main_v42 (ix2 r q)
    refine congrArg (V c main_v42) (funext fun a => Fin.ext ?_)
    match a with
    | ⟨0, _⟩ => show win2_2.index t (0 : Fin 2) * 64 + 1 * r.val = r.val; omega
    | ⟨1, _⟩ => show win2_2.index t (1 : Fin 2) * 64 + 1 * q.val = q.val; omega
  · show V c main_v44 (((cfg2.win 4).blk t).view.emb (ix2 (0 : Fin 1) q)) = V c main_v44 (ix2 (0 : Fin 1) q)
    refine congrArg (V c main_v44) (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega
  · intro r
    show V c main_v43 (((cfg2.win 3).blk t).view.emb (ix2 r q)) = V c main_v43 (ix2 r q)
    refine congrArg (V c main_v43) (funext fun a => Fin.ext ?_)
    match a with
    | ⟨0, _⟩ => show win2_3.index t (0 : Fin 2) * 64 + 1 * r.val = r.val; omega
    | ⟨1, _⟩ => show win2_3.index t (1 : Fin 2) * 64 + 1 * q.val = q.val; omega

/-- An index of the output array is in point t's block iff each coordinate is in the block's range on its axis. -/
theorem memBlock2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v45).slice (win2_5.rect t)).set ↔ _
  rw [View.set_slice_whole, Rect.mem_set_unit]
  exact Iff.rfl

/-- Every entry of the output array is in the block of the point its row falls in. -/
theorem covered2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  have hN : (i 0).val / 5000 < cfg2.N := lt_of_lt_of_eq (by omega : (i 0).val / 5000 < 20) N_2.symm
  obtain ⟨-, -, -, -, -, -, -, -, -, -, e50, e51⟩ := blockIndex2 ⟨(i 0).val / 5000, hN⟩
  refine ⟨⟨(i 0).val / 5000, hN⟩, flush2_5 _, ?_⟩
  rw [memBlock2]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 64 ≤ (i 1).val ∧ (i 1).val < win2_5.index ⟨(i 0).val / 5000, hN⟩ (1 : Fin 2) * 64 + 64
    rw [e51]; omega

/-- The launch's output array when the launch is over. -/
theorem layerOut2_final (c : Dev nD) : (dat2 V c).arrAt 5 cfg2.N = layerOut2 V c :=
  (dat2 V c).arrAt_eq_of_cover 5 (layerOut2 V c) (fun t _ => flushed2_eq V c t) (covered2)

end Cert.KernelIdeal.Hand

end
-- ==== Proof.KRegion3.lean ====
/-
  Launch 3: what its output array holds when the launch is over, as one function of the five arrays it reads.

  The grid has 20 points; point t works on rows 5000·t … 5000·t + 4999: it is handed that block of rows of the
  aggregated array and of the nodes' own array, and the two weights and the bias row whole, and writes back that block
  of rows of the output. An entry (p, j) of the two-product layer only reads row p of the two matrices, column j of the
  weights and entry j of the bias, so the layer of the block's rows is the block of rows of the layer of the whole
  arrays; the 20 blocks tile the array (row r lies in block r / 5000), so the array ends holding the layer.
-/
import proofs.«170550_j10496900071608_1_alg».proof.Proof.Gen.KernelIdeal.Frame
import proofs.«170550_j10496900071608_1_alg».proof.Proof.KPayload
import Idealize.ShloMosaic.Lib.Pipeline.Value

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.LibAffine Cert.SageLayer

variable (V : (c : Dev nD) → (b : Ref sig .tc) → Buf (Elt Ideal) ((c : Thread nD τ).loc b))

theorem origin3 : (![0, 0] : Fin 2 → Nat) = fun _ => 0 := funext fun a => by fin_cases a <;> rfl

/-- The printed index maps over the grid: the two row-blocked inputs and the output sit at block t of the rows, the
    weights and the bias row at their one block. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- What the launch leaves in its output array: the layer of the arrays it reads as the launch finds them. -/
def layerOut3 (c : Dev nD) : S100000x64.Idx → Elt Ideal .f32 :=
  affine2 (a := 100000) (k := 64) (n := 64) (V c main_v55) (V c main_v45) (V c main_v56) (V c main_v58) (V c main_v57)

/-- Row p of point t's block is row 5000·t + p of the array. -/
def rowOf3 (t : Fin cfg3.N) (p : Fin 5000) : Fin 100000 :=
  ⟨t.val * 5000 + p.val, by have ht : t.val < 20 := lt_of_lt_of_eq t.isLt N_3; have hp := p.isLt; omega⟩

/-- What point t writes back is block t of `layerOut3`. -/
theorem flushed3_eq (c : Dev nD) (t : Fin cfg3.N) :
    (dat3 V c).flushed 5 t = ((cfg3.win 5).blk t).view.read (Elt Ideal) (layerOut3 V c) := by
  show (cfg3.win 5).cut (grid3.coords t) ((dat3 V c).after 5 t) = _
  rw [after3_5]
  unfold out3_5
  rw [View.canon_unit_zero origin3]
  simp only [View.ld_unit_zero (S := S5000x64) origin3, View.ld_unit_zero (S := S64x64) origin3, View.ld_unit_zero (S := S1x64) origin3]
  rw [k3_pay1_eq]
  obtain ⟨e00, e01, e10, e11, e20, e21, e30, e31, e40, e41, e50, e51⟩ := blockIndex3 t
  funext j
  obtain ⟨p, q, rfl⟩ : ∃ (p : Fin 5000) (q : Fin 64), j = ix2 p q := ⟨j 0, j 1, eq_ix2 j⟩
  have hout : ((cfg3.win 5).blk t).view.emb (ix2 p q) = ix2 (rowOf3 t p) q := by
    funext a; apply Fin.ext
    match a with
    | ⟨0, _⟩ => show win3_5.index t (0 : Fin 2) * 5000 + 1 * p.val = t.val * 5000 + p.val; omega
    | ⟨1, _⟩ => show win3_5.index t (1 : Fin 2) * 64 + 1 * q.val = q.val; omega
  show affine2 (a := 5000) (k := 64) (n := 64) (iblk3 V c 0 t) (iblk3 V c 1 t) (iblk3 V c 2 t) (iblk3 V c 4 t) (iblk3 V c 3 t) (ix2 p q)
    = layerOut3 V c (((cfg3.win 5).blk t).view.emb (ix2 p q))
  rw [hout]
  show affine2At (a := 5000) (k := 64) (n := 64) (iblk3 V c 0 t) (iblk3 V c 1 t) (iblk3 V c 2 t) (iblk3 V c 4 t) (iblk3 V c 3 t) p q
    = affine2At (a := 100000) (k := 64) (n := 64) (V c main_v55) (V c main_v45) (V c main_v56) (V c main_v58) (V c main_v57) (rowOf3 t p) q
  refine (affine2At_congr (a := 100000) (k := 64) (n := 64) (a' := 5000) (V c main_v55) (V c main_v45) (V c main_v56) (V c main_v58) (V c main_v57)
    (iblk3 V c 0 t) (iblk3 V c 1 t) (iblk3 V c 2 t) (iblk3 V c 4 t) (iblk3 V c 3 t) p (rowOf3 t p) q ?_ ?_ ?_ ?_ ?_)
  · intro r
    show V c main_v55 (((cfg3.win 0).blk t).view.emb (ix2 p r)) = V c main_v55 (ix2 (rowOf3 t p) r)
    refine congrArg (V c main_v55) (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * r.val = r.val; omega
  · intro r
    show V c main_v45 (((cfg3.win 1).blk t).view.emb (ix2 p r)) = V c main_v45 (ix2 (rowOf3 t p) r)
    refine congrArg (V c main_v45) (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * r.val = r.val; omega
  · intro r
    show V c main_v56 (((cfg3.win 2).blk t).view.emb (ix2 r q)) = V c main_v56 (ix2 r q)
    refine congrArg (V c main_v56) (funext fun a => Fin.ext ?_)
    match a with
    | ⟨0, _⟩ => show win3_2.index t (0 : Fin 2) * 64 + 1 * r.val = r.val; omega
    | ⟨1, _⟩ => show win3_2.index t (1 : Fin 2) * 64 + 1 * q.val = q.val; omega
  · show V c main_v58 (((cfg3.win 4).blk t).view.emb (ix2 (0 : Fin 1) q)) = V c main_v58 (ix2 (0 : Fin 1) q)
    refine congrArg (V c main_v58) (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega
  · intro r
    show V c main_v57 (((cfg3.win 3).blk t).view.emb (ix2 r q)) = V c main_v57 (ix2 r q)
    refine congrArg (V c main_v57) (funext fun a => Fin.ext ?_)
    match a with
    | ⟨0, _⟩ => show win3_3.index t (0 : Fin 2) * 64 + 1 * r.val = r.val; omega
    | ⟨1, _⟩ => show win3_3.index t (1 : Fin 2) * 64 + 1 * q.val = q.val; omega

/-- An index of the output array is in point t's block iff each coordinate is in the block's range on its axis. -/
theorem memBlock3 (t : Fin cfg3.N) (i : S100000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v59).slice (win3_5.rect t)).set ↔ _
  rw [View.set_slice_whole, Rect.mem_set_unit]
  exact Iff.rfl

/-- Every entry of the output array is in the block of the point its row falls in. -/
theorem covered3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : (i 0).val / 5000 < cfg3.N := lt_of_lt_of_eq (by omega : (i 0).val / 5000 < 20) N_3.symm
  obtain ⟨-, -, -, -, -, -, -, -, -, -, e50, e51⟩ := blockIndex3 ⟨(i 0).val / 5000, hN⟩
  refine ⟨⟨(i 0).val / 5000, hN⟩, flush3_5 _, ?_⟩
  rw [memBlock3]
  intro a
  match a with
  | ⟨0, _⟩ =>
    show win3_5.index ⟨(i 0).val / 5000, hN⟩ (0 : Fin 2) * 5000 ≤ (i 0).val ∧ (i 0).val < win3_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, hN⟩ (1 : Fin 2) * 64 ≤ (i 1).val ∧ (i 1).val < win3_5.index ⟨(i 0).val / 5000, hN⟩ (1 : Fin 2) * 64 + 64
    rw [e51]; omega

/-- The launch's output array when the launch is over. -/
theorem layerOut3_final (c : Dev nD) : (dat3 V c).arrAt 5 cfg3.N = layerOut3 V c :=
  (dat3 V c).arrAt_eq_of_cover 5 (layerOut3 V c) (fun t _ => flushed3_eq V c t) (covered3)

end Cert.KernelIdeal.Hand

end
-- ==== Proof.RefBias.lean ====
/-
  The bias as a row. One program lays the 64 biases out as a [1, 64] array by a cast, the other by a broadcast along
  axis 1; both arrays hold, at (0, j), the bias j.
-/
import proofs.«170550_j10496900071608_1_alg».proof.Proof.Gen.ReferenceIdeal.Read
import Idealize.ShloMosaic.Lib.ValueLayout

set_option maxRecDepth 16384

noncomputable section

namespace Cert.ReferenceIdeal.Layers

open Idealize.ShloMosaic Idealize.ShloMosaic.ValueIdx
open Cert.ReferenceIdeal Cert.ReferenceIdeal.Gen Cert.ReferenceIdeal.Read

/-- The cast of the bias vector to a row is the reference's broadcast of it (stage 16). -/
theorem biasRow16 (x : (⟨S64, .f32⟩ : BufTy).Contents (Elt Ideal)) (h : (⟨1, ![64]⟩ : Shape).ShapeCasts ⟨2, ![1, 64]⟩) :
    shapeCast ⟨2, ![1, 64]⟩ x h = val_main_v16 (F := Ideal) x := by
  funext i
  obtain ⟨u, j, rfl⟩ : ∃ (u : Fin 1) (j : Fin 64), i = ix2 u j := ⟨i 0, i 1, eq_ix2 i⟩
  rw [shapeCast_a_1a_apply, val_main_v16_apply]
  exact congrArg x (funext fun a => match a with | ⟨0, _⟩ => rfl)

/-- The cast of the bias vector to a row is the reference's broadcast of it (stage 35). -/
theorem biasRow35 (x : (⟨S64, .f32⟩ : BufTy).Contents (Elt Ideal)) (h : (⟨1, ![64]⟩ : Shape).ShapeCasts ⟨2, ![1, 64]⟩) :
    shapeCast ⟨2, ![1, 64]⟩ x h = val_main_v35 (F := Ideal) x := by
  funext i
  obtain ⟨u, j, rfl⟩ : ∃ (u : Fin 1) (j : Fin 64), i = ix2 u j := ⟨i 0, i 1, eq_ix2 i⟩
  rw [shapeCast_a_1a_apply, val_main_v35_apply]
  exact congrArg x (funext fun a => match a with | ⟨0, _⟩ => rfl)

/-- The cast of the bias vector to a row is the reference's broadcast of it (stage 54). -/
theorem biasRow54 (x : (⟨S64, .f32⟩ : BufTy).Contents (Elt Ideal)) (h : (⟨1, ![64]⟩ : Shape).ShapeCasts ⟨2, ![1, 64]⟩) :
    shapeCast ⟨2, ![1, 64]⟩ x h = val_main_v54 (F := Ideal) x := by
  funext i
  obtain ⟨u, j, rfl⟩ : ∃ (u : Fin 1) (j : Fin 64), i = ix2 u j := ⟨i 0, i 1, eq_ix2 i⟩
  rw [shapeCast_a_1a_apply, val_main_v54_apply]
  exact congrArg x (funext fun a => match a with | ⟨0, _⟩ => rfl)

/-- The cast of the bias vector to a row is the reference's broadcast of it (stage 73). -/
theorem biasRow73 (x : (⟨S64, .f32⟩ : BufTy).Contents (Elt Ideal)) (h : (⟨1, ![64]⟩ : Shape).ShapeCasts ⟨2, ![1, 64]⟩) :
    shapeCast ⟨2, ![1, 64]⟩ x h = val_main_v73 (F := Ideal) x := by
  funext i
  obtain ⟨u, j, rfl⟩ : ∃ (u : Fin 1) (j : Fin 64), i = ix2 u j := ⟨i 0, i 1, eq_ix2 i⟩
  rw [shapeCast_a_1a_apply, val_main_v73_apply]
  exact congrArg x (funext fun a => match a with | ⟨0, _⟩ => rfl)

end Cert.ReferenceIdeal.Layers

end
-- ==== Proof.KHost0.lean ====
/-
  Host stretch 0: what it leaves in the buffers the next launch reads, from what it finds.

  The stretch cuts the edge list into its row of sources and its row of targets, wraps negative source indices (adds 100000 to them), gathers the source rows of the current node
  features, scatter-adds them into a zero array at the target rows, transposes the layer's two weights and lays the
  bias out as a row. Each of these is the corresponding stage of the reference, applied to the same operands: the
  same host operations with the same dimension records, so nothing has to be read at an index except the bias row
  (a cast here, a broadcast there). Stated from ANY contents `Wp` of the buffers on entry, under hypotheses naming
  what the stretch reads.
-/
import proofs.«170550_j10496900071608_1_alg».proof.Proof.Gen.KernelIdeal.Launch
import proofs.«170550_j10496900071608_1_alg».proof.Proof.RefBias
import Idealize.ShloMosaic.Lib.StableHlo.Run

set_option maxRecDepth 16384
set_option maxHeartbeats 2000000

noncomputable section

namespace Cert.KernelIdeal.Hand

open Idealize.ShloMosaic Idealize.ShloMosaic.TcCoe Idealize.SL.Sem Idealize.ShloMosaic.StableHlo
open Cert.KernelIdeal Cert.KernelIdeal.Gen Cert.ReferenceIdeal.Read

variable (Wp : Valuation τ sig (Elt Ideal))

/-- The row of sources. -/
theorem stretch0_sources (x1 : (⟨S2x1200000, .i32⟩ : BufTy).Contents (Elt Ideal)) (h1 : Wp (Proc.devRef .tc main_arg1) = x1) :
    StableHlo.after (hostOps0 (F := Ideal)) Wp (Proc.devRef .tc main_v1) = val_main_v1 (F := Ideal) x1 := by
  after_results
  rw [h1]
  rfl

/-- The row of targets. -/
theorem stretch0_targets (x1 : (⟨S2x1200000, .i32⟩ : BufTy).Contents (Elt Ideal)) (h1 : Wp (Proc.devRef .tc main_arg1) = x1) :
    StableHlo.after (hostOps0 (F := Ideal)) Wp (Proc.devRef .tc main_v3) = val_main_v3 (F := Ideal) x1 := by
  after_results
  rw [h1]
  rfl

/-- The aggregated rows: the reference's stage, on the same operands. -/
theorem stretch0_aggregate (x0 : (⟨S100000x64, .f32⟩ : BufTy).Contents (Elt Ideal)) (x1 : (⟨S2x1200000, .i32⟩ : BufTy).Contents (Elt Ideal)) (h0 : Wp (Proc.devRef .tc main_arg0) = x0) (h1 : Wp (Proc.devRef .tc main_arg1) = x1) :
    StableHlo.after (hostOps0 (F := Ideal)) Wp (Proc.devRef .tc main_v13) = val_main_v13 (F := Ideal) x0 x1 := by
  after_results
  rw [h0, h1]
  rfl

/-- A transposed weight. -/
theorem stretch0_weightL (x2 : (⟨S64x64, .f32⟩ : BufTy).Contents (Elt Ideal)) (h : Wp (Proc.devRef .tc main_arg2) = x2) :
    StableHlo.after (hostOps0 (F := Ideal)) Wp (Proc.devRef .tc main_v14) = val_main_v14 (F := Ideal) x2 := by
  after_results
  rw [h]
  rfl

/-- A transposed weight. -/
theorem stretch0_weightR (x4 : (⟨S64x64, .f32⟩ : BufTy).Contents (Elt Ideal)) (h : Wp (Proc.devRef .tc main_arg4) = x4) :
    StableHlo.after (hostOps0 (F := Ideal)) Wp (Proc.devRef .tc main_v15) = val_main_v19 (F := Ideal) x4 := by
  after_results
  rw [h]
  rfl

/-- The bias row. -/
theorem stretch0_biasRow (x3 : (⟨S64, .f32⟩ : BufTy).Contents (Elt Ideal)) (h : Wp (Proc.devRef .tc main_arg3) = x3) :
    StableHlo.after (hostOps0 (F := Ideal)) Wp (Proc.devRef .tc main_v16) = val_main_v16 (F := Ideal) x3 := by
  after_results
  rw [h]
  exact Cert.ReferenceIdeal.Layers.biasRow16 x3 shapeCasts_S64_S1x64

/-- The stretch does not write `main_arg0`. -/
theorem stretch0_keeps_main_arg0 : StableHlo.after (hostOps0 (F := Ideal)) Wp (Proc.devRef .tc main_arg0) = Wp (Proc.devRef .tc main_arg0) := by
  after_results

/-- The stretch does not write `main_arg5`. -/
theorem stretch0_keeps_main_arg5 : StableHlo.after (hostOps0 (F := Ideal)) Wp (Proc.devRef .tc main_arg5) = Wp (Proc.devRef .tc main_arg5) := by
  after_results

/-- The stretch does not write `main_arg6`. -/
theorem stretch0_keeps_main_arg6 : StableHlo.after (hostOps0 (F := Ideal)) Wp (Proc.devRef .tc main_arg6) = Wp (Proc.devRef .tc main_arg6) := by
  after_results

/-- The stretch does not write `main_arg7`. -/
theorem stretch0_keeps_main_arg7 : StableHlo.after (hostOps0 (F := Ideal)) Wp (Proc.devRef .tc main_arg7) = Wp (Proc.devRef .tc main_arg7) := by
  after_results

/-- The stretch does not write `main_arg8`. -/
theorem stretch0_keeps_main_arg8 : StableHlo.after (hostOps0 (F := Ideal)) Wp (Proc.devRef .tc main_arg8) = Wp (Proc.devRef .tc main_arg8) := by
  after_results

/-- The stretch does not write `main_arg9`. -/
theorem stretch0_keeps_main_arg9 : StableHlo.after (hostOps0 (F := Ideal)) Wp (Proc.devRef .tc main_arg9) = Wp (Proc.devRef .tc main_arg9) := by
  after_results

/-- The stretch does not write `main_arg10`. -/
theorem stretch0_keeps_main_arg10 : StableHlo.after (hostOps0 (F := Ideal)) Wp (Proc.devRef .tc main_arg10) = Wp (Proc.devRef .tc main_arg10) := by
  after_results

end Cert.KernelIdeal.Hand

end
-- ==== Proof.KHost1.lean ====
/-
  Host stretch 1: what it leaves in the buffers the next launch reads, from what it finds.

  The stretch wraps negative source indices (adds 100000 to them), gathers the source rows of the current node
  features, scatter-adds them into a zero array at the target rows, transposes the layer's two weights and lays the
  bias out as a row. Each of these is the corresponding stage of the reference, applied to the same operands: the
  same host operations with the same dimension records, so nothing has to be read at an index except the bias row
  (a cast here, a broadcast there). Stated from ANY contents `Wp` of the buffers on entry, under hypotheses naming
  what the stretch reads.
-/
import proofs.«170550_j10496900071608_1_alg».proof.Proof.Gen.KernelIdeal.Launch
import proofs.«170550_j10496900071608_1_alg».proof.Proof.RefBias
import Idealize.ShloMosaic.Lib.StableHlo.Run

set_option maxRecDepth 16384
set_option maxHeartbeats 2000000

noncomputable section

namespace Cert.KernelIdeal.Hand

open Idealize.ShloMosaic Idealize.ShloMosaic.TcCoe Idealize.SL.Sem Idealize.ShloMosaic.StableHlo
open Cert.KernelIdeal Cert.KernelIdeal.Gen Cert.ReferenceIdeal.Read

variable (Wp : Valuation τ sig (Elt Ideal))

/-- The aggregated rows: the reference's stage, on the same operands. -/
theorem stretch1_aggregate (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal))
    (hh : Wp (Proc.devRef .tc main_v17) = val_main_v22 (F := Ideal) x0 x1 x2 x3 x4)
    (hs : Wp (Proc.devRef .tc main_v1) = val_main_v1 (F := Ideal) x1) (ht : Wp (Proc.devRef .tc main_v3) = val_main_v3 (F := Ideal) x1) :
    StableHlo.after (hostOps1 (F := Ideal)) Wp (Proc.devRef .tc main_v27) = val_main_v32 (F := Ideal) x0 x1 x2 x3 x4 := by
  after_results
  rw [hh, hs, ht]
  rfl

/-- A transposed weight. -/
theorem stretch1_weightL (x5 : (⟨S64x64, .f32⟩ : BufTy).Contents (Elt Ideal)) (h : Wp (Proc.devRef .tc main_arg5) = x5) :
    StableHlo.after (hostOps1 (F := Ideal)) Wp (Proc.devRef .tc main_v28) = val_main_v33 (F := Ideal) x5 := by
  after_results
  rw [h]
  rfl

/-- A transposed weight. -/
theorem stretch1_weightR (x7 : (⟨S64x64, .f32⟩ : BufTy).Contents (Elt Ideal)) (h : Wp (Proc.devRef .tc main_arg7) = x7) :
    StableHlo.after (hostOps1 (F := Ideal)) Wp (Proc.devRef .tc main_v29) = val_main_v38 (F := Ideal) x7 := by
  after_results
  rw [h]
  rfl

/-- The bias row. -/
theorem stretch1_biasRow (x6 : (⟨S64, .f32⟩ : BufTy).Contents (Elt Ideal)) (h : Wp (Proc.devRef .tc main_arg6) = x6) :
    StableHlo.after (hostOps1 (F := Ideal)) Wp (Proc.devRef .tc main_v30) = val_main_v35 (F := Ideal) x6 := by
  after_results
  rw [h]
  exact Cert.ReferenceIdeal.Layers.biasRow35 x6 shapeCasts_S64_S1x64

/-- The stretch does not write `main_v17`. -/
theorem stretch1_keeps_main_v17 : StableHlo.after (hostOps1 (F := Ideal)) Wp (Proc.devRef .tc main_v17) = Wp (Proc.devRef .tc main_v17) := by
  after_results

/-- The stretch does not write `main_v1`. -/
theorem stretch1_keeps_main_v1 : StableHlo.after (hostOps1 (F := Ideal)) Wp (Proc.devRef .tc main_v1) = Wp (Proc.devRef .tc main_v1) := by
  after_results

/-- The stretch does not write `main_v3`. -/
theorem stretch1_keeps_main_v3 : StableHlo.after (hostOps1 (F := Ideal)) Wp (Proc.devRef .tc main_v3) = Wp (Proc.devRef .tc main_v3) := by
  after_results

/-- The stretch does not write `main_arg5`. -/
theorem stretch1_keeps_main_arg5 : StableHlo.after (hostOps1 (F := Ideal)) Wp (Proc.devRef .tc main_arg5) = Wp (Proc.devRef .tc main_arg5) := by
  after_results

/-- The stretch does not write `main_arg6`. -/
theorem stretch1_keeps_main_arg6 : StableHlo.after (hostOps1 (F := Ideal)) Wp (Proc.devRef .tc main_arg6) = Wp (Proc.devRef .tc main_arg6) := by
  after_results

/-- The stretch does not write `main_arg7`. -/
theorem stretch1_keeps_main_arg7 : StableHlo.after (hostOps1 (F := Ideal)) Wp (Proc.devRef .tc main_arg7) = Wp (Proc.devRef .tc main_arg7) := by
  after_results

/-- The stretch does not write `main_arg8`. -/
theorem stretch1_keeps_main_arg8 : StableHlo.after (hostOps1 (F := Ideal)) Wp (Proc.devRef .tc main_arg8) = Wp (Proc.devRef .tc main_arg8) := by
  after_results

/-- The stretch does not write `main_arg9`. -/
theorem stretch1_keeps_main_arg9 : StableHlo.after (hostOps1 (F := Ideal)) Wp (Proc.devRef .tc main_arg9) = Wp (Proc.devRef .tc main_arg9) := by
  after_results

/-- The stretch does not write `main_arg10`. -/
theorem stretch1_keeps_main_arg10 : StableHlo.after (hostOps1 (F := Ideal)) Wp (Proc.devRef .tc main_arg10) = Wp (Proc.devRef .tc main_arg10) := by
  after_results

end Cert.KernelIdeal.Hand

end
-- ==== Proof.KHost2.lean ====
/-
  Host stretch 2: what it leaves in the buffers the next launch reads, from what it finds.

  The stretch wraps negative source indices (adds 100000 to them), gathers the source rows of the current node
  features, scatter-adds them into a zero array at the target rows, transposes the layer's two weights and lays the
  bias out as a row. Each of these is the corresponding stage of the reference, applied to the same operands: the
  same host operations with the same dimension records, so nothing has to be read at an index except the bias row
  (a cast here, a broadcast there). Stated from ANY contents `Wp` of the buffers on entry, under hypotheses naming
  what the stretch reads.
-/
import proofs.«170550_j10496900071608_1_alg».proof.Proof.Gen.KernelIdeal.Launch
import proofs.«170550_j10496900071608_1_alg».proof.Proof.RefBias
import Idealize.ShloMosaic.Lib.StableHlo.Run

set_option maxRecDepth 16384
set_option maxHeartbeats 2000000

noncomputable section

namespace Cert.KernelIdeal.Hand

open Idealize.ShloMosaic Idealize.ShloMosaic.TcCoe Idealize.SL.Sem Idealize.ShloMosaic.StableHlo
open Cert.KernelIdeal Cert.KernelIdeal.Gen Cert.ReferenceIdeal.Read

variable (Wp : Valuation τ sig (Elt Ideal))

/-- The aggregated rows: the reference's stage, on the same operands. -/
theorem stretch2_aggregate (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (hh : Wp (Proc.devRef .tc main_v31) = val_main_v41 (F := Ideal) x0 x1 x2 x3 x4 x5 x6 x7)
    (hs : Wp (Proc.devRef .tc main_v1) = val_main_v1 (F := Ideal) x1) (ht : Wp (Proc.devRef .tc main_v3) = val_main_v3 (F := Ideal) x1) :
    StableHlo.after (hostOps2 (F := Ideal)) Wp (Proc.devRef .tc main_v41) = val_main_v51 (F := Ideal) x0 x1 x2 x3 x4 x5 x6 x7 := by
  after_results
  rw [hh, hs, ht]
  rfl

/-- A transposed weight. -/
theorem stretch2_weightL (x5 : (⟨S64x64, .f32⟩ : BufTy).Contents (Elt Ideal)) (h : Wp (Proc.devRef .tc main_arg5) = x5) :
    StableHlo.after (hostOps2 (F := Ideal)) Wp (Proc.devRef .tc main_v42) = val_main_v52 (F := Ideal) x5 := by
  after_results
  rw [h]
  rfl

/-- A transposed weight. -/
theorem stretch2_weightR (x7 : (⟨S64x64, .f32⟩ : BufTy).Contents (Elt Ideal)) (h : Wp (Proc.devRef .tc main_arg7) = x7) :
    StableHlo.after (hostOps2 (F := Ideal)) Wp (Proc.devRef .tc main_v43) = val_main_v57 (F := Ideal) x7 := by
  after_results
  rw [h]
  rfl

/-- The bias row. -/
theorem stretch2_biasRow (x6 : (⟨S64, .f32⟩ : BufTy).Contents (Elt Ideal)) (h : Wp (Proc.devRef .tc main_arg6) = x6) :
    StableHlo.after (hostOps2 (F := Ideal)) Wp (Proc.devRef .tc main_v44) = val_main_v54 (F := Ideal) x6 := by
  after_results
  rw [h]
  exact Cert.ReferenceIdeal.Layers.biasRow54 x6 shapeCasts_S64_S1x64

/-- The stretch does not write `main_v31`. -/
theorem stretch2_keeps_main_v31 : StableHlo.after (hostOps2 (F := Ideal)) Wp (Proc.devRef .tc main_v31) = Wp (Proc.devRef .tc main_v31) := by
  after_results

/-- The stretch does not write `main_v1`. -/
theorem stretch2_keeps_main_v1 : StableHlo.after (hostOps2 (F := Ideal)) Wp (Proc.devRef .tc main_v1) = Wp (Proc.devRef .tc main_v1) := by
  after_results

/-- The stretch does not write `main_v3`. -/
theorem stretch2_keeps_main_v3 : StableHlo.after (hostOps2 (F := Ideal)) Wp (Proc.devRef .tc main_v3) = Wp (Proc.devRef .tc main_v3) := by
  after_results

/-- The stretch does not write `main_arg8`. -/
theorem stretch2_keeps_main_arg8 : StableHlo.after (hostOps2 (F := Ideal)) Wp (Proc.devRef .tc main_arg8) = Wp (Proc.devRef .tc main_arg8) := by
  after_results

/-- The stretch does not write `main_arg9`. -/
theorem stretch2_keeps_main_arg9 : StableHlo.after (hostOps2 (F := Ideal)) Wp (Proc.devRef .tc main_arg9) = Wp (Proc.devRef .tc main_arg9) := by
  after_results

/-- The stretch does not write `main_arg10`. -/
theorem stretch2_keeps_main_arg10 : StableHlo.after (hostOps2 (F := Ideal)) Wp (Proc.devRef .tc main_arg10) = Wp (Proc.devRef .tc main_arg10) := by
  after_results

end Cert.KernelIdeal.Hand

end
-- ==== Proof.KHost3.lean ====
/-
  Host stretch 3: what it leaves in the buffers the next launch reads, from what it finds.

  The stretch wraps negative source indices (adds 100000 to them), gathers the source rows of the current node
  features, scatter-adds them into a zero array at the target rows, transposes the layer's two weights and lays the
  bias out as a row. Each of these is the corresponding stage of the reference, applied to the same operands: the
  same host operations with the same dimension records, so nothing has to be read at an index except the bias row
  (a cast here, a broadcast there). Stated from ANY contents `Wp` of the buffers on entry, under hypotheses naming
  what the stretch reads.
-/
import proofs.«170550_j10496900071608_1_alg».proof.Proof.Gen.KernelIdeal.Launch
import proofs.«170550_j10496900071608_1_alg».proof.Proof.RefBias
import Idealize.ShloMosaic.Lib.StableHlo.Run

set_option maxRecDepth 16384
set_option maxHeartbeats 2000000

noncomputable section

namespace Cert.KernelIdeal.Hand

open Idealize.ShloMosaic Idealize.ShloMosaic.TcCoe Idealize.SL.Sem Idealize.ShloMosaic.StableHlo
open Cert.KernelIdeal Cert.KernelIdeal.Gen Cert.ReferenceIdeal.Read

variable (Wp : Valuation τ sig (Elt Ideal))

/-- The aggregated rows: the reference's stage, on the same operands. -/
theorem stretch3_aggregate (x0 : (⟨S100000x64, .f32⟩ : BufTy).Contents (Elt Ideal)) (x1 : (⟨S2x1200000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (hh : Wp (Proc.devRef .tc main_v45) = val_main_v60 (F := Ideal) x0 x1 x2 x3 x4 x5 x6 x7)
    (hs : Wp (Proc.devRef .tc main_v1) = val_main_v1 (F := Ideal) x1) (ht : Wp (Proc.devRef .tc main_v3) = val_main_v3 (F := Ideal) x1) :
    StableHlo.after (hostOps3 (F := Ideal)) Wp (Proc.devRef .tc main_v55) = val_main_v70 (F := Ideal) x0 x1 x2 x3 x4 x5 x6 x7 := by
  after_results
  rw [hh, hs, ht]
  rfl

/-- A transposed weight. -/
theorem stretch3_weightL (x8 : (⟨S64x64, .f32⟩ : BufTy).Contents (Elt Ideal)) (h : Wp (Proc.devRef .tc main_arg8) = x8) :
    StableHlo.after (hostOps3 (F := Ideal)) Wp (Proc.devRef .tc main_v56) = val_main_v71 (F := Ideal) x8 := by
  after_results
  rw [h]
  rfl

/-- A transposed weight. -/
theorem stretch3_weightR (x10 : (⟨S64x64, .f32⟩ : BufTy).Contents (Elt Ideal)) (h : Wp (Proc.devRef .tc main_arg10) = x10) :
    StableHlo.after (hostOps3 (F := Ideal)) Wp (Proc.devRef .tc main_v57) = val_main_v76 (F := Ideal) x10 := by
  after_results
  rw [h]
  rfl

/-- The bias row. -/
theorem stretch3_biasRow (x9 : (⟨S64, .f32⟩ : BufTy).Contents (Elt Ideal)) (h : Wp (Proc.devRef .tc main_arg9) = x9) :
    StableHlo.after (hostOps3 (F := Ideal)) Wp (Proc.devRef .tc main_v58) = val_main_v73 (F := Ideal) x9 := by
  after_results
  rw [h]
  exact Cert.ReferenceIdeal.Layers.biasRow73 x9 shapeCasts_S64_S1x64

/-- The stretch does not write `main_v45`. -/
theorem stretch3_keeps_main_v45 : StableHlo.after (hostOps3 (F := Ideal)) Wp (Proc.devRef .tc main_v45) = Wp (Proc.devRef .tc main_v45) := by
  after_results

end Cert.KernelIdeal.Hand

end
-- ==== Proof.RefLayers.lean ====
/-
  The reference, layer by layer.

  Each of the four layers of the reference is, at the ideal values, the two-product layer of five arrays: the
  aggregated rows (a scatter-add of gathered rows, left as one host term), the layer's input, the two transposed
  weights and the bias laid out as a row. The host's two products are sums over the 64 input channels, the bias row is
  laid along every row, and the host adds them as (s · wl + b) + h · wr, which is the layer as written. The first
  three layers end in the hyperbolic tangent.
-/
import proofs.«170550_j10496900071608_1_alg».proof.Proof.Gen.ReferenceIdeal.Read
import proofs.«170550_j10496900071608_1_alg».proof.Proof.SageLayer
import proofs.«170550_j10496900071608_1_alg».proof.Proof.LibPlainDot

set_option maxRecDepth 16384

noncomputable section

namespace Cert.ReferenceIdeal.Layers

open Idealize.ShloMosaic Idealize.ShloMosaic.ValueIdx
open Cert.ReferenceIdeal Cert.ReferenceIdeal.Gen Cert.ReferenceIdeal.Read Cert.LibAffine Cert.SageLayer

local notation "RD" => dot_S100000x64_S64x64_S100000x64_1_0_0_1_n_n

/-- Layer 0 of the reference, with its hyperbolic tangent. -/
theorem layer0_eq (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    val_main_v22 (F := Ideal) x0 x1 x2 x3 x4
      = tanhAffine2 (a := 100000) (k := 64) (n := 64) (val_main_v13 (F := Ideal) x0 x1) (x0) (val_main_v14 (F := Ideal) x2) (val_main_v16 (F := Ideal) x3) (val_main_v19 (F := Ideal) x4) := by
  funext i
  rw [val_main_v22_apply, Ideal.hostUnary_tanh_def]
  unfold tanhAffine2
  refine congrArg Ideal.tanh (congrFun ?_ i)
  unfold val_main_v21 val_main_v18 val_main_v15 val_main_v17 val_main_v20
  exact hostAffine2_eq (a := 100000) (k := 64) (n := 64) RD (Cert.LibPlainDot.contr_rank RD rfl) (Cert.LibPlainDot.contr_size RD rfl)
    (Cert.LibPlainDot.lhs_row RD rfl rfl) (Cert.LibPlainDot.lhs_col RD rfl)
    (Cert.LibPlainDot.rhs_row RD rfl rfl) (Cert.LibPlainDot.rhs_col RD rfl rfl rfl rfl)
    bcast_S1x64_S100000x64_0_1 none _ _ _ _ _

/-- Layer 1 of the reference, with its hyperbolic tangent. -/
theorem layer1_eq (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v41 (F := Ideal) x0 x1 x2 x3 x4 x5 x6 x7
      = tanhAffine2 (a := 100000) (k := 64) (n := 64) (val_main_v32 (F := Ideal) x0 x1 x2 x3 x4) (val_main_v22 (F := Ideal) x0 x1 x2 x3 x4) (val_main_v33 (F := Ideal) x5) (val_main_v35 (F := Ideal) x6) (val_main_v38 (F := Ideal) x7) := by
  funext i
  rw [val_main_v41_apply, Ideal.hostUnary_tanh_def]
  unfold tanhAffine2
  refine congrArg Ideal.tanh (congrFun ?_ i)
  unfold val_main_v40 val_main_v37 val_main_v34 val_main_v36 val_main_v39
  exact hostAffine2_eq (a := 100000) (k := 64) (n := 64) RD (Cert.LibPlainDot.contr_rank RD rfl) (Cert.LibPlainDot.contr_size RD rfl)
    (Cert.LibPlainDot.lhs_row RD rfl rfl) (Cert.LibPlainDot.lhs_col RD rfl)
    (Cert.LibPlainDot.rhs_row RD rfl rfl) (Cert.LibPlainDot.rhs_col RD rfl rfl rfl rfl)
    bcast_S1x64_S100000x64_0_1 none _ _ _ _ _

/-- Layer 2 of the reference, with its hyperbolic tangent. -/
theorem layer2_eq (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v60 (F := Ideal) x0 x1 x2 x3 x4 x5 x6 x7
      = tanhAffine2 (a := 100000) (k := 64) (n := 64) (val_main_v51 (F := Ideal) x0 x1 x2 x3 x4 x5 x6 x7) (val_main_v41 (F := Ideal) x0 x1 x2 x3 x4 x5 x6 x7) (val_main_v52 (F := Ideal) x5) (val_main_v54 (F := Ideal) x6) (val_main_v57 (F := Ideal) x7) := by
  funext i
  rw [val_main_v60_apply, Ideal.hostUnary_tanh_def]
  unfold tanhAffine2
  refine congrArg Ideal.tanh (congrFun ?_ i)
  unfold val_main_v59 val_main_v56 val_main_v53 val_main_v55 val_main_v58
  exact hostAffine2_eq (a := 100000) (k := 64) (n := 64) RD (Cert.LibPlainDot.contr_rank RD rfl) (Cert.LibPlainDot.contr_size RD rfl)
    (Cert.LibPlainDot.lhs_row RD rfl rfl) (Cert.LibPlainDot.lhs_col RD rfl)
    (Cert.LibPlainDot.rhs_row RD rfl rfl) (Cert.LibPlainDot.rhs_col RD rfl rfl rfl rfl)
    bcast_S1x64_S100000x64_0_1 none _ _ _ _ _

/-- Layer 3 of the reference (no activation). -/
theorem layer3_eq (x0 : (⟨S100000x64, .f32⟩ : BufTy).Contents (Elt Ideal)) (x1 : (⟨S2x1200000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal))
    (x8 : (⟨S64x64, .f32⟩ : BufTy).Contents (Elt Ideal)) (x9 : (⟨S64, .f32⟩ : BufTy).Contents (Elt Ideal)) (x10 : (⟨S64x64, .f32⟩ : BufTy).Contents (Elt Ideal)) :
    val_main_v78 (F := Ideal) x0 x1 x2 x3 x4 x5 x6 x7 x8 x9 x10
      = affine2 (a := 100000) (k := 64) (n := 64) (val_main_v70 (F := Ideal) x0 x1 x2 x3 x4 x5 x6 x7) (val_main_v60 (F := Ideal) x0 x1 x2 x3 x4 x5 x6 x7) (val_main_v71 (F := Ideal) x8) (val_main_v73 (F := Ideal) x9) (val_main_v76 (F := Ideal) x10) := by
  unfold val_main_v78 val_main_v75 val_main_v72 val_main_v74 val_main_v77
  exact hostAffine2_eq (a := 100000) (k := 64) (n := 64) RD (Cert.LibPlainDot.contr_rank RD rfl) (Cert.LibPlainDot.contr_size RD rfl)
    (Cert.LibPlainDot.lhs_row RD rfl rfl) (Cert.LibPlainDot.lhs_col RD rfl)
    (Cert.LibPlainDot.rhs_row RD rfl rfl) (Cert.LibPlainDot.rhs_col RD rfl rfl rfl rfl)
    bcast_S1x64_S100000x64_0_1 none _ _ _ _ _

end Cert.ReferenceIdeal.Layers

end
-- ==== Proof.KBoundary.lean ====
/-
  The idealized kernel's result is the reference's last stage at the launch arguments.

  Walk @main boundary by boundary. A host stretch leaves, in the buffers the next launch reads, the reference's own
  stages (the aggregated rows, the two transposed weights, the bias row) of what it found; a launch leaves in its
  output array the two-product layer of those five arrays, which is the reference's layer of them; every other buffer
  passes through untouched. So after launch j the output buffer holds the reference's layer j at the launch arguments,
  and after the last launch the result buffer holds its last stage.
-/
import proofs.«170550_j10496900071608_1_alg».proof.Proof.KRun
import proofs.«170550_j10496900071608_1_alg».proof.Proof.KRegion0
import proofs.«170550_j10496900071608_1_alg».proof.Proof.KRegion1
import proofs.«170550_j10496900071608_1_alg».proof.Proof.KRegion2
import proofs.«170550_j10496900071608_1_alg».proof.Proof.KRegion3
import proofs.«170550_j10496900071608_1_alg».proof.Proof.KHost0
import proofs.«170550_j10496900071608_1_alg».proof.Proof.KHost1
import proofs.«170550_j10496900071608_1_alg».proof.Proof.KHost2
import proofs.«170550_j10496900071608_1_alg».proof.Proof.KHost3
import proofs.«170550_j10496900071608_1_alg».proof.Proof.RefLayers

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen Cert.ReferenceIdeal.Read Cert.LibAffine Cert.SageLayer

/-- Equal operands give equal layers. -/
theorem tanhAffine2_congr {a k n : ℕ} {s s' h h' : FVec Ideal ⟨2, ![a, k]⟩ .f32} {wl wl' : FVec Ideal ⟨2, ![k, n]⟩ .f32}
    {b b' : FVec Ideal ⟨2, ![1, n]⟩ .f32} {wr wr' : FVec Ideal ⟨2, ![k, n]⟩ .f32}
    (hs : s = s') (hh : h = h') (hwl : wl = wl') (hb : b = b') (hwr : wr = wr') :
    tanhAffine2 s h wl b wr = tanhAffine2 s' h' wl' b' wr' := by subst hs hh hwl hb hwr; rfl

theorem affine2_congr {a k n : ℕ} {s s' h h' : FVec Ideal ⟨2, ![a, k]⟩ .f32} {wl wl' : FVec Ideal ⟨2, ![k, n]⟩ .f32}
    {b b' : FVec Ideal ⟨2, ![1, n]⟩ .f32} {wr wr' : FVec Ideal ⟨2, ![k, n]⟩ .f32}
    (hs : s = s') (hh : h = h') (hwl : wl = wl') (hb : b = b') (hwr : wr = wr') :
    affine2 s h wl b wr = affine2 s' h' wl' b' wr' := by subst hs hh hwl hb hwr; rfl

variable (m : (ℓ : Loc nD τ sig) → Buf (Elt Ideal) ℓ) (ρ : Dev nD → PrngReg)

/-! ## The launch arguments -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)

/-! ## After host stretch 0 -/

theorem at1_main_v13 (c : Dev nD) : W1 m ρ c (Proc.devRef .tc main_v13) = val_main_v13 (F := Ideal) (A0 m c) (A1 m c) :=
  stretch0_aggregate (W0 m ρ c) (A0 m c) (A1 m c) rfl rfl
theorem at1_main_arg0 (c : Dev nD) : W1 m ρ c (Proc.devRef .tc main_arg0) = (A0 m c) := (stretch0_keeps_main_arg0 (W0 m ρ c)).trans rfl
theorem at1_main_v14 (c : Dev nD) : W1 m ρ c (Proc.devRef .tc main_v14) = val_main_v14 (F := Ideal) (A2 m c) := stretch0_weightL (W0 m ρ c) (A2 m c) rfl
theorem at1_main_v15 (c : Dev nD) : W1 m ρ c (Proc.devRef .tc main_v15) = val_main_v19 (F := Ideal) (A4 m c) := stretch0_weightR (W0 m ρ c) (A4 m c) rfl
theorem at1_main_v16 (c : Dev nD) : W1 m ρ c (Proc.devRef .tc main_v16) = val_main_v16 (F := Ideal) (A3 m c) := stretch0_biasRow (W0 m ρ c) (A3 m c) rfl
theorem at1_main_v1 (c : Dev nD) : W1 m ρ c (Proc.devRef .tc main_v1) = val_main_v1 (F := Ideal) (A1 m c) := stretch0_sources (W0 m ρ c) (A1 m c) rfl
theorem at1_main_v3 (c : Dev nD) : W1 m ρ c (Proc.devRef .tc main_v3) = val_main_v3 (F := Ideal) (A1 m c) := stretch0_targets (W0 m ρ c) (A1 m c) rfl
theorem at1_main_arg5 (c : Dev nD) : W1 m ρ c (Proc.devRef .tc main_arg5) = (A5 m c) := (stretch0_keeps_main_arg5 (W0 m ρ c)).trans rfl
theorem at1_main_arg6 (c : Dev nD) : W1 m ρ c (Proc.devRef .tc main_arg6) = (A6 m c) := (stretch0_keeps_main_arg6 (W0 m ρ c)).trans rfl
theorem at1_main_arg7 (c : Dev nD) : W1 m ρ c (Proc.devRef .tc main_arg7) = (A7 m c) := (stretch0_keeps_main_arg7 (W0 m ρ c)).trans rfl
theorem at1_main_arg8 (c : Dev nD) : W1 m ρ c (Proc.devRef .tc main_arg8) = (A8 m c) := (stretch0_keeps_main_arg8 (W0 m ρ c)).trans rfl
theorem at1_main_arg9 (c : Dev nD) : W1 m ρ c (Proc.devRef .tc main_arg9) = (A9 m c) := (stretch0_keeps_main_arg9 (W0 m ρ c)).trans rfl
theorem at1_main_arg10 (c : Dev nD) : W1 m ρ c (Proc.devRef .tc main_arg10) = (A10 m c) := (stretch0_keeps_main_arg10 (W0 m ρ c)).trans rfl

/-! ## After launch 0 -/

theorem at2_main_v17 (c : Dev nD) : W2 m ρ c (Proc.devRef .tc main_v17) = val_main_v22 (F := Ideal) (A0 m c) (A1 m c) (A2 m c) (A3 m c) (A4 m c) :=
  (W2_arr m ρ c 5).trans <| (layerOut0_final (V1 m ρ) c).trans <| by
    rw [Cert.ReferenceIdeal.Layers.layer0_eq]
    exact tanhAffine2_congr (a := 100000) (k := 64) (n := 64)
      (at1_main_v13 m ρ c) (at1_main_arg0 m ρ c) (at1_main_v14 m ρ c) (at1_main_v16 m ρ c) (at1_main_v15 m ρ c)
theorem at2_main_v1 (c : Dev nD) : W2 m ρ c (Proc.devRef .tc main_v1) = val_main_v1 (F := Ideal) (A1 m c) :=
  (W2_of_ne m ρ c main_v1 (by decide)).trans (at1_main_v1 m ρ c)
theorem at2_main_v3 (c : Dev nD) : W2 m ρ c (Proc.devRef .tc main_v3) = val_main_v3 (F := Ideal) (A1 m c) :=
  (W2_of_ne m ρ c main_v3 (by decide)).trans (at1_main_v3 m ρ c)
theorem at2_main_arg5 (c : Dev nD) : W2 m ρ c (Proc.devRef .tc main_arg5) = (A5 m c) :=
  (W2_of_ne m ρ c main_arg5 (by decide)).trans (at1_main_arg5 m ρ c)
theorem at2_main_arg6 (c : Dev nD) : W2 m ρ c (Proc.devRef .tc main_arg6) = (A6 m c) :=
  (W2_of_ne m ρ c main_arg6 (by decide)).trans (at1_main_arg6 m ρ c)
theorem at2_main_arg7 (c : Dev nD) : W2 m ρ c (Proc.devRef .tc main_arg7) = (A7 m c) :=
  (W2_of_ne m ρ c main_arg7 (by decide)).trans (at1_main_arg7 m ρ c)
theorem at2_main_arg8 (c : Dev nD) : W2 m ρ c (Proc.devRef .tc main_arg8) = (A8 m c) :=
  (W2_of_ne m ρ c main_arg8 (by decide)).trans (at1_main_arg8 m ρ c)
theorem at2_main_arg9 (c : Dev nD) : W2 m ρ c (Proc.devRef .tc main_arg9) = (A9 m c) :=
  (W2_of_ne m ρ c main_arg9 (by decide)).trans (at1_main_arg9 m ρ c)
theorem at2_main_arg10 (c : Dev nD) : W2 m ρ c (Proc.devRef .tc main_arg10) = (A10 m c) :=
  (W2_of_ne m ρ c main_arg10 (by decide)).trans (at1_main_arg10 m ρ c)

/-! ## After host stretch 1 -/

theorem at3_main_v27 (c : Dev nD) : W3 m ρ c (Proc.devRef .tc main_v27) = val_main_v32 (F := Ideal) (A0 m c) (A1 m c) (A2 m c) (A3 m c) (A4 m c) :=
  stretch1_aggregate (W2 m ρ c) (A0 m c) (A1 m c) (A2 m c) (A3 m c) (A4 m c) (at2_main_v17 m ρ c) (at2_main_v1 m ρ c) (at2_main_v3 m ρ c)
theorem at3_main_v17 (c : Dev nD) : W3 m ρ c (Proc.devRef .tc main_v17) = val_main_v22 (F := Ideal) (A0 m c) (A1 m c) (A2 m c) (A3 m c) (A4 m c) := (stretch1_keeps_main_v17 (W2 m ρ c)).trans (at2_main_v17 m ρ c)
theorem at3_main_v28 (c : Dev nD) : W3 m ρ c (Proc.devRef .tc main_v28) = val_main_v33 (F := Ideal) (A5 m c) := stretch1_weightL (W2 m ρ c) (A5 m c) (at2_main_arg5 m ρ c)
theorem at3_main_v29 (c : Dev nD) : W3 m ρ c (Proc.devRef .tc main_v29) = val_main_v38 (F := Ideal) (A7 m c) := stretch1_weightR (W2 m ρ c) (A7 m c) (at2_main_arg7 m ρ c)
theorem at3_main_v30 (c : Dev nD) : W3 m ρ c (Proc.devRef .tc main_v30) = val_main_v35 (F := Ideal) (A6 m c) := stretch1_biasRow (W2 m ρ c) (A6 m c) (at2_main_arg6 m ρ c)
theorem at3_main_v1 (c : Dev nD) : W3 m ρ c (Proc.devRef .tc main_v1) = val_main_v1 (F := Ideal) (A1 m c) := (stretch1_keeps_main_v1 (W2 m ρ c)).trans (at2_main_v1 m ρ c)
theorem at3_main_v3 (c : Dev nD) : W3 m ρ c (Proc.devRef .tc main_v3) = val_main_v3 (F := Ideal) (A1 m c) := (stretch1_keeps_main_v3 (W2 m ρ c)).trans (at2_main_v3 m ρ c)
theorem at3_main_arg5 (c : Dev nD) : W3 m ρ c (Proc.devRef .tc main_arg5) = (A5 m c) := (stretch1_keeps_main_arg5 (W2 m ρ c)).trans (at2_main_arg5 m ρ c)
theorem at3_main_arg6 (c : Dev nD) : W3 m ρ c (Proc.devRef .tc main_arg6) = (A6 m c) := (stretch1_keeps_main_arg6 (W2 m ρ c)).trans (at2_main_arg6 m ρ c)
theorem at3_main_arg7 (c : Dev nD) : W3 m ρ c (Proc.devRef .tc main_arg7) = (A7 m c) := (stretch1_keeps_main_arg7 (W2 m ρ c)).trans (at2_main_arg7 m ρ c)
theorem at3_main_arg8 (c : Dev nD) : W3 m ρ c (Proc.devRef .tc main_arg8) = (A8 m c) := (stretch1_keeps_main_arg8 (W2 m ρ c)).trans (at2_main_arg8 m ρ c)
theorem at3_main_arg9 (c : Dev nD) : W3 m ρ c (Proc.devRef .tc main_arg9) = (A9 m c) := (stretch1_keeps_main_arg9 (W2 m ρ c)).trans (at2_main_arg9 m ρ c)
theorem at3_main_arg10 (c : Dev nD) : W3 m ρ c (Proc.devRef .tc main_arg10) = (A10 m c) := (stretch1_keeps_main_arg10 (W2 m ρ c)).trans (at2_main_arg10 m ρ c)

/-! ## After launch 1 -/

theorem at4_main_v31 (c : Dev nD) : W4 m ρ c (Proc.devRef .tc main_v31) = val_main_v41 (F := Ideal) (A0 m c) (A1 m c) (A2 m c) (A3 m c) (A4 m c) (A5 m c) (A6 m c) (A7 m c) :=
  (W4_arr m ρ c 5).trans <| (layerOut1_final (V3 m ρ) c).trans <| by
    rw [Cert.ReferenceIdeal.Layers.layer1_eq]
    exact tanhAffine2_congr (a := 100000) (k := 64) (n := 64)
      (at3_main_v27 m ρ c) (at3_main_v17 m ρ c) (at3_main_v28 m ρ c) (at3_main_v30 m ρ c) (at3_main_v29 m ρ c)
theorem at4_main_v1 (c : Dev nD) : W4 m ρ c (Proc.devRef .tc main_v1) = val_main_v1 (F := Ideal) (A1 m c) :=
  (W4_of_ne m ρ c main_v1 (by decide)).trans (at3_main_v1 m ρ c)
theorem at4_main_v3 (c : Dev nD) : W4 m ρ c (Proc.devRef .tc main_v3) = val_main_v3 (F := Ideal) (A1 m c) :=
  (W4_of_ne m ρ c main_v3 (by decide)).trans (at3_main_v3 m ρ c)
theorem at4_main_arg5 (c : Dev nD) : W4 m ρ c (Proc.devRef .tc main_arg5) = (A5 m c) :=
  (W4_of_ne m ρ c main_arg5 (by decide)).trans (at3_main_arg5 m ρ c)
theorem at4_main_arg6 (c : Dev nD) : W4 m ρ c (Proc.devRef .tc main_arg6) = (A6 m c) :=
  (W4_of_ne m ρ c main_arg6 (by decide)).trans (at3_main_arg6 m ρ c)
theorem at4_main_arg7 (c : Dev nD) : W4 m ρ c (Proc.devRef .tc main_arg7) = (A7 m c) :=
  (W4_of_ne m ρ c main_arg7 (by decide)).trans (at3_main_arg7 m ρ c)
theorem at4_main_arg8 (c : Dev nD) : W4 m ρ c (Proc.devRef .tc main_arg8) = (A8 m c) :=
  (W4_of_ne m ρ c main_arg8 (by decide)).trans (at3_main_arg8 m ρ c)
theorem at4_main_arg9 (c : Dev nD) : W4 m ρ c (Proc.devRef .tc main_arg9) = (A9 m c) :=
  (W4_of_ne m ρ c main_arg9 (by decide)).trans (at3_main_arg9 m ρ c)
theorem at4_main_arg10 (c : Dev nD) : W4 m ρ c (Proc.devRef .tc main_arg10) = (A10 m c) :=
  (W4_of_ne m ρ c main_arg10 (by decide)).trans (at3_main_arg10 m ρ c)

/-! ## After host stretch 2 -/

theorem at5_main_v41 (c : Dev nD) : W5 m ρ c (Proc.devRef .tc main_v41) = val_main_v51 (F := Ideal) (A0 m c) (A1 m c) (A2 m c) (A3 m c) (A4 m c) (A5 m c) (A6 m c) (A7 m c) :=
  stretch2_aggregate (W4 m ρ c) (A0 m c) (A1 m c) (A2 m c) (A3 m c) (A4 m c) (A5 m c) (A6 m c) (A7 m c) (at4_main_v31 m ρ c) (at4_main_v1 m ρ c) (at4_main_v3 m ρ c)
theorem at5_main_v31 (c : Dev nD) : W5 m ρ c (Proc.devRef .tc main_v31) = val_main_v41 (F := Ideal) (A0 m c) (A1 m c) (A2 m c) (A3 m c) (A4 m c) (A5 m c) (A6 m c) (A7 m c) := (stretch2_keeps_main_v31 (W4 m ρ c)).trans (at4_main_v31 m ρ c)
theorem at5_main_v42 (c : Dev nD) : W5 m ρ c (Proc.devRef .tc main_v42) = val_main_v52 (F := Ideal) (A5 m c) := stretch2_weightL (W4 m ρ c) (A5 m c) (at4_main_arg5 m ρ c)
theorem at5_main_v43 (c : Dev nD) : W5 m ρ c (Proc.devRef .tc main_v43) = val_main_v57 (F := Ideal) (A7 m c) := stretch2_weightR (W4 m ρ c) (A7 m c) (at4_main_arg7 m ρ c)
theorem at5_main_v44 (c : Dev nD) : W5 m ρ c (Proc.devRef .tc main_v44) = val_main_v54 (F := Ideal) (A6 m c) := stretch2_biasRow (W4 m ρ c) (A6 m c) (at4_main_arg6 m ρ c)
theorem at5_main_v1 (c : Dev nD) : W5 m ρ c (Proc.devRef .tc main_v1) = val_main_v1 (F := Ideal) (A1 m c) := (stretch2_keeps_main_v1 (W4 m ρ c)).trans (at4_main_v1 m ρ c)
theorem at5_main_v3 (c : Dev nD) : W5 m ρ c (Proc.devRef .tc main_v3) = val_main_v3 (F := Ideal) (A1 m c) := (stretch2_keeps_main_v3 (W4 m ρ c)).trans (at4_main_v3 m ρ c)
theorem at5_main_arg8 (c : Dev nD) : W5 m ρ c (Proc.devRef .tc main_arg8) = (A8 m c) := (stretch2_keeps_main_arg8 (W4 m ρ c)).trans (at4_main_arg8 m ρ c)
theorem at5_main_arg9 (c : Dev nD) : W5 m ρ c (Proc.devRef .tc main_arg9) = (A9 m c) := (stretch2_keeps_main_arg9 (W4 m ρ c)).trans (at4_main_arg9 m ρ c)
theorem at5_main_arg10 (c : Dev nD) : W5 m ρ c (Proc.devRef .tc main_arg10) = (A10 m c) := (stretch2_keeps_main_arg10 (W4 m ρ c)).trans (at4_main_arg10 m ρ c)

/-! ## After launch 2 -/

theorem at6_main_v45 (c : Dev nD) : W6 m ρ c (Proc.devRef .tc main_v45) = val_main_v60 (F := Ideal) (A0 m c) (A1 m c) (A2 m c) (A3 m c) (A4 m c) (A5 m c) (A6 m c) (A7 m c) :=
  (W6_arr m ρ c 5).trans <| (layerOut2_final (V5 m ρ) c).trans <| by
    rw [Cert.ReferenceIdeal.Layers.layer2_eq]
    exact tanhAffine2_congr (a := 100000) (k := 64) (n := 64)
      (at5_main_v41 m ρ c) (at5_main_v31 m ρ c) (at5_main_v42 m ρ c) (at5_main_v44 m ρ c) (at5_main_v43 m ρ c)
theorem at6_main_v1 (c : Dev nD) : W6 m ρ c (Proc.devRef .tc main_v1) = val_main_v1 (F := Ideal) (A1 m c) :=
  (W6_of_ne m ρ c main_v1 (by decide)).trans (at5_main_v1 m ρ c)
theorem at6_main_v3 (c : Dev nD) : W6 m ρ c (Proc.devRef .tc main_v3) = val_main_v3 (F := Ideal) (A1 m c) :=
  (W6_of_ne m ρ c main_v3 (by decide)).trans (at5_main_v3 m ρ c)
theorem at6_main_arg8 (c : Dev nD) : W6 m ρ c (Proc.devRef .tc main_arg8) = (A8 m c) :=
  (W6_of_ne m ρ c main_arg8 (by decide)).trans (at5_main_arg8 m ρ c)
theorem at6_main_arg9 (c : Dev nD) : W6 m ρ c (Proc.devRef .tc main_arg9) = (A9 m c) :=
  (W6_of_ne m ρ c main_arg9 (by decide)).trans (at5_main_arg9 m ρ c)
theorem at6_main_arg10 (c : Dev nD) : W6 m ρ c (Proc.devRef .tc main_arg10) = (A10 m c) :=
  (W6_of_ne m ρ c main_arg10 (by decide)).trans (at5_main_arg10 m ρ c)

/-! ## After host stretch 3 -/

theorem at7_main_v55 (c : Dev nD) : W7 m ρ c (Proc.devRef .tc main_v55) = val_main_v70 (F := Ideal) (A0 m c) (A1 m c) (A2 m c) (A3 m c) (A4 m c) (A5 m c) (A6 m c) (A7 m c) :=
  stretch3_aggregate (W6 m ρ c) (A0 m c) (A1 m c) (A2 m c) (A3 m c) (A4 m c) (A5 m c) (A6 m c) (A7 m c) (at6_main_v45 m ρ c) (at6_main_v1 m ρ c) (at6_main_v3 m ρ c)
theorem at7_main_v45 (c : Dev nD) : W7 m ρ c (Proc.devRef .tc main_v45) = val_main_v60 (F := Ideal) (A0 m c) (A1 m c) (A2 m c) (A3 m c) (A4 m c) (A5 m c) (A6 m c) (A7 m c) := (stretch3_keeps_main_v45 (W6 m ρ c)).trans (at6_main_v45 m ρ c)
theorem at7_main_v56 (c : Dev nD) : W7 m ρ c (Proc.devRef .tc main_v56) = val_main_v71 (F := Ideal) (A8 m c) := stretch3_weightL (W6 m ρ c) (A8 m c) (at6_main_arg8 m ρ c)
theorem at7_main_v57 (c : Dev nD) : W7 m ρ c (Proc.devRef .tc main_v57) = val_main_v76 (F := Ideal) (A10 m c) := stretch3_weightR (W6 m ρ c) (A10 m c) (at6_main_arg10 m ρ c)
theorem at7_main_v58 (c : Dev nD) : W7 m ρ c (Proc.devRef .tc main_v58) = val_main_v73 (F := Ideal) (A9 m c) := stretch3_biasRow (W6 m ρ c) (A9 m c) (at6_main_arg9 m ρ c)

/-! ## After launch 3 -/

theorem at8_main_v59 (c : Dev nD) : W8 m ρ c (Proc.devRef .tc main_v59) = val_main_v78 (F := Ideal) (A0 m c) (A1 m c) (A2 m c) (A3 m c) (A4 m c) (A5 m c) (A6 m c) (A7 m c) (A8 m c) (A9 m c) (A10 m c) :=
  (W8_arr m ρ c 5).trans <| (layerOut3_final (V7 m ρ) c).trans <| by
    rw [Cert.ReferenceIdeal.Layers.layer3_eq]
    exact affine2_congr (a := 100000) (k := 64) (n := 64)
      (at7_main_v55 m ρ c) (at7_main_v45 m ρ c) (at7_main_v56 m ρ c) (at7_main_v58 m ρ c) (at7_main_v57 m ρ c)

/-! ## The run -/

/-- Every weakly fair execution of the idealized kernel terminates without a fault, its result buffer at the
    reference's last stage of the launch arguments, its arguments as launched. -/
theorem run_value : θ_run defs (onTc (τ := τ) (main (F := Ideal))) ⟨m, fun _ => 0, ρ⟩ (fun r => ∀ c : Dev nD,
      r.2.mem ((c.tc : Thread nD τ).loc main_v59) = val_main_v78 (F := Ideal) (A0 m c) (A1 m c) (A2 m c) (A3 m c) (A4 m c) (A5 m c) (A6 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (at8_main_v59 m ρ c), (h c).2⟩) (run_named m ρ)

end Cert.KernelIdeal.Hand

end
-- ==== Proof.lean ====
/-
  The certificate of a four-layer graph convolution: a Pallas kernel for each layer's dense stage, with the edge gather
  and the segment sum on the host, against the plain jnp reference.

  Per layer, with `h` the current node features [100000, 64], the reference computes
      agg = segment_sum (h[src], dst),   h' = act (agg · Wlᵀ + b + h · Wrᵀ),
  act the hyperbolic tangent in the first three layers and nothing in the last. The kernel's @main computes `agg`,
  the two transposed weights and the bias row by the SAME host operations, and hands them to a launch that works on
  blocks of 5000 rows and stores (agg · Wlᵀ + h · Wrᵀ) + b, then act. At the ideal values the roundings to the narrow
  format are the identity, a matrix-unit product into a zero accumulator and the host's product are the same sum over
  the 64 input channels, an entry of the layer reads only its own row, and the twenty blocks tile the array; so each
  launch leaves the layer of the five arrays it reads, in the order (A + H) + b where the reference has (A + b) + H:
  equal on the extended reals by commutativity and associativity of the sum alone. No finiteness of the inputs is
  used, and the gather and the scatter-add are never opened: both programs apply them to equal operands.

  The frames are the generated ones (the reference's is its generated run with the result dropped); the ideal pass
  rewrote nothing, so the kernel's idealization is its own text read at the ideal values.
-/
import proofs.«170550_j10496900071608_1_alg».proof.Defs
import proofs.«170550_j10496900071608_1_alg».proof.Proof.Gen.Kernel
import proofs.«170550_j10496900071608_1_alg».proof.Proof.Gen.Kernel.Frame
import proofs.«170550_j10496900071608_1_alg».proof.Proof.Gen.KernelIdeal
import proofs.«170550_j10496900071608_1_alg».proof.Proof.Gen.KernelIdeal.Frame
import proofs.«170550_j10496900071608_1_alg».proof.Proof.Gen.ReferenceIdeal
import proofs.«170550_j10496900071608_1_alg».proof.Proof.Gen.ReferenceIdeal.Run
import proofs.«170550_j10496900071608_1_alg».proof.Proof.Gen.ReferenceIdeal.Read
import proofs.«170550_j10496900071608_1_alg».proof.Proof.Gen.Pre_finite_inputs
import proofs.«170550_j10496900071608_1_alg».proof.Proof.KBoundary
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at the reference's last stage of the launch arguments: the kernel by the walk
    through its boundaries, the reference by its generated run; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v78 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v78_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
